-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S200x10000 : Shape := ⟨2, ![200, 10000]⟩
abbrev S200x64 : Shape := ⟨2, ![200, 64]⟩
abbrev S200x128 : Shape := ⟨2, ![200, 128]⟩
abbrev S200 : Shape := ⟨1, ![200]⟩
abbrev S200x1 : Shape := ⟨2, ![200, 1]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S10000x64, .f32⟩
  | .local _ .vmem, ⟨0, _⟩ => ⟨S10000x128, .f32⟩
  | .local _ .vmem, ⟨1, _⟩ => ⟨S200x10000, .f32⟩
  | .local _ .vmem, ⟨2, _⟩ => ⟨S200x10000, .f32⟩
  | .local _ .vmem, ⟨3, _⟩ => ⟨S128x128, .f32⟩
  | .local _ .vmem, ⟨4, _⟩ => ⟨S1x128, .f32⟩
  | .local _ .vmem, ⟨5, _⟩ => ⟨S128x64, .f32⟩
  | .local _ .vmem, ⟨6, _⟩ => ⟨S1x64, .f32⟩
  | .local _ .vmem, ⟨7, _⟩ => ⟨S200x64, .f32⟩
  | .local _ .vmem, ⟨8, _⟩ => ⟨S200x64, .f32⟩
  | .local _ .vmem, ⟨9, _⟩ => ⟨S10000x128, .f32⟩
  | .local _ .vmem, ⟨10, _⟩ => ⟨S10000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c200_i32 : BitVec 32 := 200#32
  let v22 : BitVec 32 := Scalar.muli arg1 c200_i32
  let v23 : Index := Scalar.indexCast v22
  let c0_14 : Index := 0#32
  ![v23.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S200x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S128x64_S128x64_0_0 : ∀ a, (![0, 0] : Fin 2 → Nat) a + S128x64.size a ≤ S128x64.size a
  h_S128x64 : 0 < S128x64.numel
  h_S200x64 : 0 < S200x64.numel
  shapeCasts_S200x64_S200x64 : S200x64.ShapeCasts S200x64
  inb_S10000x64_S10000x64_0_0 : ∀ a, (![0, 0] : Fin 2 → Nat) a + S10000x64.size a ≤ S10000x64.size a
  h_S10000x64 : 0 < S10000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  reduces_S200x64_S200 : S200x64.Reduces [1] S200
  shapeCasts_S200_S200x1 : S200.ShapeCasts S200x1
  broadcasts_S200x1_S200x64 : S200x1.Broadcasts S200x64
  inb_S200x64_S200x64_0_0 : ∀ a, (![0, 0] : Fin 2 → Nat) a + S200x64.size a ≤ S200x64.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x64_S200x64_1_0_0_1_n_n_wf : DotDims.WF S200x128 S128x64 S200x64 [1] [0] [0] [1] [] []
  dot_S200x10000_S10000x64_S200x64_1_0_0_1_n_n_wf : DotDims.WF S200x10000 S10000x64 S200x64 [1] [0] [0] [1] [] []
  hrank0 : 0 < grid0.rank
  k0_off1_inb : ∀ i : grid0.Coords, ∀ (k0_h2 : k0_cond2 i = 1#1), ∀ a, (k0_off1 i) a + S200x64.size a ≤ S10000x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x64.size a ≤ S10000x64.size a
  hwx0_6 : ∀ i : grid0.Coords, EltTy.bits .f32 = 32 ∨ (Rect.block (s := S10000x64) S200x64.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x64_S200x64_1_0_0_1_n_n : DotDims S200x128 S128x64 S200x64 where
  lhsContracting := [1]
  rhsContracting := [0]
  lhsNonContracting := [0]
  rhsNonContracting := [1]
  lhsBatch := []
  rhsBatch := []
  wf := dot_S200x128_S128x64_S200x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S200x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x64, .f32⟩
  | .hbm, ⟨33, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_call1_cst_0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_cst_1 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_v11 : Ref sig .tc := ⟨.hbm, 33, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.KB.Setup.lean ====
/-
  What the three cases of the body share.

  The grid is 2 × 50, walked row-major: point `t` has coordinates (t / 50, t % 50). The body has three conditionals on the
  coordinates: the first (both coordinates zero) holds at point 0 only and fills the first scratch array; the second (first
  coordinate zero) holds at points 0 … 49 — the first sweep — and stores one 200-row slice of the second scratch array; the third
  (first coordinate one) holds at points 50 … 99 — the second sweep — and stores the result block. The result window's block index is
  the product of the coordinates: it stays at block 0 through the first sweep, where the window is idle and nothing is written back,
  and is block t - 50 in the second sweep, where every point writes its block back.
-/
import proofs.«170348_g29824252903679_cont_9to1_81_5_alg».proof.Proof.Gen.Kernel.Frame
import proofs.«170348_g29824252903679_cont_9to1_81_5_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three conditions, in closed form over the grid -/

/-- The body's first conditional: both grid coordinates are zero (the scalar chain the body computes, substituted). -/
abbrev atStart (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem atStart_iff : ∀ t : Fin cfg0.N, atStart (grid0.coords t) ↔ t.val = 0 :=
  (by decide +kernel : ∀ t : Fin grid0.N, atStart (grid0.coords t) ↔ t.val = 0)

/-- The body's second conditional: the first coordinate is zero — the first sweep. -/
abbrev inFirst (i : grid0.Coords) : Prop := k0_cond2 i = 1#1
theorem inFirst_iff : ∀ t : Fin cfg0.N, inFirst (grid0.coords t) ↔ t.val < 50 :=
  (by decide +kernel : ∀ t : Fin grid0.N, inFirst (grid0.coords t) ↔ t.val < 50)

/-- The body's third conditional: the first coordinate is one — the second sweep. -/
abbrev inSecond (i : grid0.Coords) : Prop := k0_cond3 i = 1#1
theorem inSecond_iff : ∀ t : Fin cfg0.N, inSecond (grid0.coords t) ↔ 50 ≤ t.val :=
  (by decide +kernel : ∀ t : Fin grid0.N, inSecond (grid0.coords t) ↔ 50 ≤ t.val)

/-! ## Where the windows are idle and where the result is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The result window is idle exactly through the first sweep, -/
theorem idle6_iff : ∀ t : Fin cfg0.N, cfg0.idle 6 (grid0.coords t) = true ↔ t.val < 50 :=
  (by decide +kernel : ∀ t : Fin grid0.N, cfg0.idle 6 (grid0.coords t) = true ↔ t.val < 50)
/-- and written back exactly at the points of the second sweep. -/
theorem flush6_iff : ∀ t : Fin cfg0.N, (cfg0.win 6).flush t = true ↔ 50 ≤ t.val :=
  (by decide +kernel : ∀ t : Fin grid0.N, win0_6.flush t = true ↔ 50 ≤ t.val)
/-- It is never fetched (an output). -/
theorem fetch6 : ∀ t : Fin cfg0.N, (cfg0.win 6).fetch t = false :=
  (by decide +kernel : ∀ t : Fin grid0.N, win0_6.fetch t = false)

/-! ## The memrefs the body is called with -/

abbrev mem0 (t : Fin cfg0.N) : Memref sig .tc .vmem S10000x128 .f32 := win0_0.stage (cfg0.slots t 0)
abbrev whole0 (t : Fin cfg0.N) : (mem0 t).IsWhole := hstage0_0 ((cfg0.slots t 0).cast nbuf0_0)
abbrev mem1 (t : Fin cfg0.N) : Memref sig .tc .vmem S200x10000 .f32 := win0_1.stage (cfg0.slots t 1)
abbrev whole1 (t : Fin cfg0.N) : (mem1 t).IsWhole := hstage0_1 ((cfg0.slots t 1).cast nbuf0_1)
abbrev mem2 (t : Fin cfg0.N) : Memref sig .tc .vmem S128x128 .f32 := win0_2.stage (cfg0.slots t 2)
abbrev whole2 (t : Fin cfg0.N) : (mem2 t).IsWhole := hstage0_2 ((cfg0.slots t 2).cast nbuf0_2)
abbrev mem3 (t : Fin cfg0.N) : Memref sig .tc .vmem S1x128 .f32 := win0_3.stage (cfg0.slots t 3)
abbrev whole3 (t : Fin cfg0.N) : (mem3 t).IsWhole := hstage0_3 ((cfg0.slots t 3).cast nbuf0_3)
abbrev mem4 (t : Fin cfg0.N) : Memref sig .tc .vmem S128x64 .f32 := win0_4.stage (cfg0.slots t 4)
abbrev whole4 (t : Fin cfg0.N) : (mem4 t).IsWhole := hstage0_4 ((cfg0.slots t 4).cast nbuf0_4)
abbrev mem5 (t : Fin cfg0.N) : Memref sig .tc .vmem S1x64 .f32 := win0_5.stage (cfg0.slots t 5)
abbrev whole5 (t : Fin cfg0.N) : (mem5 t).IsWhole := hstage0_5 ((cfg0.slots t 5).cast nbuf0_5)
abbrev mem6 (t : Fin cfg0.N) : Memref sig .tc .vmem S200x64 .f32 := win0_6.stage (cfg0.slots t 6)
abbrev whole6 (t : Fin cfg0.N) : (mem6 t).IsWhole := hstage0_6 ((cfg0.slots t 6).cast nbuf0_6)
/-- The two scratch arrays: whole buffers of the kernel's own. -/
abbrev scrA : Memref sig .tc .vmem S10000x128 .f32 := Memref.whole cc0_scratch0
abbrev scrB : Memref sig .tc .vmem S10000x64 .f32 := Memref.whole cc0_scratch1

/-- What the region hands the body besides the windows: the two scratch arrays, each at some contents, and the generator register. -/
theorem rest_eq (c : Dev nD) :
    (Pipeline.ΦA spec0 c : sProp 𝕄)
      = iprop(iprop((∃ d, owns (c : Thread nD τ) scrA fullShare d) ∗ (∃ d, owns (c : Thread nD τ) scrB fullShare d)) ∗ (∃ r, prngReg c r)) := by
  unfold Pipeline.ΦA; rw [scopedRest0_eq]; simp only [scrA, scrB, owns_whole]; try rfl

end Cert.Kernel.Hand

end
-- ==== Proof.KB.Slice.lean ====
/-
  One 200-row slice of the second scratch array.

  At a point `t < 50` of the first sweep the body stores its second term into rows 200 t … 200 t + 199 (all 64 columns) of the
  10000 × 64 scratch array and leaves every other row as it was. `withSlice` is the array's contents after that store, as a
  function of the contents before and of the stored block; inside the slice it reads the stored block, outside it the old contents.
-/
import proofs.«170348_g29824252903679_cont_9to1_81_5_alg».proof.Proof.KB.Setup
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The slice's offsets at a point of the first sweep: row `200 t`, column 0 (the body computes the row as the second grid
    coordinate times 200; over the first sweep the second coordinate is the point itself). -/
theorem sliceOff : ∀ t : Fin cfg0.N, t.val < 50 → k0_off1 (grid0.coords t) = ![200 * t.val, 0] :=
  (by decide +kernel : ∀ t : Fin grid0.N, t.val < 50 → k0_off1 (grid0.coords t) = ![200 * t.val, 0])

/-- The scratch array after the store of the block `pay` into the slice at grid point `i`, over the contents `old`. -/
def withSlice (M : Memref sig .tc .vmem S10000x64 .f32) (hM : M.IsWhole) (i : grid0.Coords) (hi : inFirst i)
    (old : Vec F S10000x64 .f32) (pay : Vec F S200x64 .f32) : Vec F S10000x64 .f32 :=
  M.view.read (Elt F) (M.view.writes (Elt F) (hM.unread old)
    [(⟨Rect.unit (s := S10000x64) (k0_off1 i) S200x64.size (k0_off1_inb i hi), pay⟩ : View.Piece (Elt F) S10000x64 .f32)])

/-- Row `200 t + r` of the array after the store is row `r` of the stored block. -/
theorem withSlice_in (M : Memref sig .tc .vmem S10000x64 .f32) (hM : M.IsWhole) (t : Fin cfg0.N) (ht : t.val < 50)
    (hi : inFirst (grid0.coords t)) (old : Vec F S10000x64 .f32) (pay : Vec F S200x64 .f32)
    (y : S10000x64.Idx) (x : S200x64.Idx) (h0 : (y 0).val = 200 * t.val + (x 0).val) (h1 : (y 1).val = (x 1).val) :
    withSlice M hM (grid0.coords t) hi old pay y = pay x :=
  View.read_writes_cons_rows_of_mem M.view (hM.unread old) (k0_off1_inb (grid0.coords t) hi) pay [] y x (sliceOff t ht) h0 h1

/-- A row outside `200 t … 200 t + 199` is as it was. -/
theorem withSlice_out (M : Memref sig .tc .vmem S10000x64 .f32) (hM : M.IsWhole) (t : Fin cfg0.N) (ht : t.val < 50)
    (hi : inFirst (grid0.coords t)) (old : Vec F S10000x64 .f32) (pay : Vec F S200x64 .f32)
    (y : S10000x64.Idx) (h : (y 0).val < 200 * t.val ∨ 200 * t.val + 200 ≤ (y 0).val) :
    withSlice M hM (grid0.coords t) hi old pay y = old y :=
  (View.read_writes_cons_rows_of_not_mem M.view (hM.unread old) (k0_off1_inb (grid0.coords t) hi) pay [] y (sliceOff t ht) rfl h).trans
    (by rw [View.writes_nil, hM.read_unread])

/-- The two spellings of "all offsets zero" the body's whole-buffer loads and stores use. -/
theorem zeros2 : (![0, 0] : Fin 2 → ℕ) = fun _ => 0 := by
  funext a; match a with | ⟨0, _⟩ => rfl | ⟨1, _⟩ => rfl

end Cert.Kernel.Hand

end
-- ==== Proof.KB.RunStart.lean ====
/-
  The body at the very first point.

  The first two conditionals are taken. The body first stores its first term — the features times the first weights — over the
  whole of the first scratch array, whatever that held; then, as at every point of the first sweep, it loads the matrix block, the
  first scratch array (now that product), the first bias row and the second weights and stores its second term of them into
  rows 0 … 199 of the second scratch array. The input buffers and the result's buffer are left as they were.
-/
import proofs.«170348_g29824252903679_cont_9to1_81_5_alg».proof.Proof.KB.Slice
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- From the inputs' buffers at their contents, the result's buffer at `x6`, the scratch arrays at anything (`xs0`, `xs1`), the body
    runs and hands back the first scratch array at its first term of the features and the first weights, and the second at `xs1`
    with the point's slice replaced by its second term of the matrix block, that product, the bias row and the second weights. -/
theorem runStart (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S200x64 .f32) (harg8 : arg8.IsWhole) (arg9 : Memref sig .tc .vmem S10000x128 .f32) (harg9 : arg9.IsWhole) (arg10 : Memref sig .tc .vmem S10000x64 .f32) (harg10 : arg10.IsWhole) (hc0 : atStart i) (hc1 : inFirst i) (hc2 : ¬inSecond i)
    (x0 : Vec F S10000x128 .f32) (x1 : Vec F S200x10000 .f32) (x2 : Vec F S128x128 .f32) (x3 : Vec F S1x128 .f32) (x4 : Vec F S128x64 .f32) (x5 : Vec F S1x64 .f32) (x6 : Vec F S200x64 .f32) (xs0 : Vec F S10000x128 .f32) (xs1 : Vec F S10000x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 x0 x2) ∗ owns (c : Thread nD τ) arg10 fullShare (withSlice arg10 harg10 i hc1 xs1 (k0_pay2 x1 (k0_pay1 x0 x2) x3 x4))) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; swap; · iexact HS0
    ipureintro
    sl_unfold_run_names
    simp only [View.readAt_eq_ld, harg2.read_unread, harg4.read_unread,
      View.ld_unit_zero (S := S10000x128) zeros2, View.ld_unit_zero (S := S128x128) zeros2]
    funext y
    exact View.read_writes_cons_unit_of_mem arg9.view (harg9.unread xs0) _ (k0_pay1 x0 x2) [] y y rfl
      (fun a => by match a with | ⟨0, _⟩ => exact (Nat.zero_add _).symm | ⟨1, _⟩ => exact (Nat.zero_add _).symm)
  iexists _; isplitr; swap; · iexact HS1
  ipureintro
  unfold withSlice
  sl_unfold_run_names
  simp only [View.readAt_eq_ld, harg2.read_unread, harg3.read_unread, harg4.read_unread, harg5.read_unread, harg6.read_unread,
    View.readCov_unit_zero arg9.view zeros2,
    View.ld_unit_zero (S := S10000x128) zeros2, View.ld_unit_zero (S := S128x128) zeros2, View.ld_unit_zero (S := S200x10000) zeros2,
    View.ld_unit_zero (S := S1x128) zeros2, View.ld_unit_zero (S := S128x64) zeros2]

end Cert.Kernel.Hand

end
-- ==== Proof.KB.RunFirst.lean ====
/-
  The body at a point of the first sweep other than the very first point.

  Only the second conditional is taken: the body loads the 200 × 10000 block of the matrix, the whole first scratch array, the first
  bias row and the second weights, and stores its second term of them into the point's 200-row slice of the second scratch array.
  Every input buffer, the result's buffer and the first scratch array are left as they were.
-/
import proofs.«170348_g29824252903679_cont_9to1_81_5_alg».proof.Proof.KB.Slice
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- From the inputs' buffers at their contents, the result's buffer at `x6`, the first scratch array at `xs0` and the second at
    `xs1`, the body runs and hands everything back unchanged except the second scratch array, which holds `xs1` with the point's
    slice replaced by the body's second term of the matrix block, `xs0`, the bias row and the second weights. -/
theorem runFirst (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S200x64 .f32) (harg8 : arg8.IsWhole) (arg9 : Memref sig .tc .vmem S10000x128 .f32) (harg9 : arg9.IsWhole) (arg10 : Memref sig .tc .vmem S10000x64 .f32) (harg10 : arg10.IsWhole) (hc0 : ¬atStart i) (hc1 : inFirst i) (hc2 : ¬inSecond i)
    (x0 : Vec F S10000x128 .f32) (x1 : Vec F S200x10000 .f32) (x2 : Vec F S128x128 .f32) (x3 : Vec F S1x128 .f32) (x4 : Vec F S128x64 .f32) (x5 : Vec F S1x64 .f32) (x6 : Vec F S200x64 .f32) (xs0 : Vec F S10000x128 .f32) (xs1 : Vec F S10000x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare (withSlice arg10 harg10 i hc1 xs1 (k0_pay2 x1 xs0 x3 x4))) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; · ipureintro; exact harg9.read_unread _
    iexact HS0
  iexists _; isplitr; swap; · iexact HS1
  ipureintro
  unfold withSlice
  simp only [View.readAt_eq_ld, harg3.read_unread, harg9.read_unread, harg5.read_unread, harg6.read_unread,
    View.ld_unit_zero (S := S200x10000) zeros2, View.ld_unit_zero (S := S10000x128) zeros2, View.ld_unit_zero (S := S1x128) zeros2,
    View.ld_unit_zero (S := S128x64) zeros2]

end Cert.Kernel.Hand

end
-- ==== Proof.KB.RunSecond.lean ====
/-
  The body at a point of the second sweep.

  Only the third conditional is taken: the body loads the 200 × 10000 block of the matrix, the WHOLE second scratch array and the
  second bias row, and stores its third term of them — the log-softmax rows — over the whole of the result's 200 × 64 buffer,
  whatever that held. The input buffers and both scratch arrays are left as they were.
-/
import proofs.«170348_g29824252903679_cont_9to1_81_5_alg».proof.Proof.KB.Slice
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- From the inputs' buffers at their contents, the result's buffer at anything (`x6`), the scratch arrays at `xs0` and `xs1`, the
    body runs and hands everything back unchanged except the result's buffer, which holds the body's third term of the matrix
    block, `xs1` and the second bias row. -/
theorem runSecond (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S200x64 .f32) (harg8 : arg8.IsWhole) (arg9 : Memref sig .tc .vmem S10000x128 .f32) (harg9 : arg9.IsWhole) (arg10 : Memref sig .tc .vmem S10000x64 .f32) (harg10 : arg10.IsWhole) (hc0 : ¬atStart i) (hc1 : ¬inFirst i) (hc2 : inSecond i)
    (x0 : Vec F S10000x128 .f32) (x1 : Vec F S200x10000 .f32) (x2 : Vec F S128x128 .f32) (x3 : Vec F S1x128 .f32) (x4 : Vec F S128x64 .f32) (x5 : Vec F S1x64 .f32) (x6 : Vec F S200x64 .f32) (xs0 : Vec F S10000x128 .f32) (xs1 : Vec F S10000x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x1 xs1 x5) ∗ owns (c : Thread nD τ) arg9 fullShare xs0 ∗ owns (c : Thread nD τ) arg10 fullShare xs1) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    simp only [View.readAt_eq_ld, harg3.read_unread, harg10.read_unread, harg7.read_unread,
      View.ld_unit_zero (S := S200x10000) zeros2, View.ld_unit_zero (S := S10000x64) zeros2, View.ld_unit_zero (S := S1x64) zeros2]
    funext y
    exact View.read_writes_cons_unit_of_mem arg8.view (harg8.unread x6) _ (k0_pay3 x1 xs1 x5) [] y y rfl
      (fun a => by match a with | ⟨0, _⟩ => exact (Nat.zero_add _).symm | ⟨1, _⟩ => exact (Nat.zero_add _).symm)
  isplitl [HS0]
  · iexists _; isplitr; · ipureintro; exact harg9.read_unread _
    iexact HS0
  iexists _; isplitr; · ipureintro; exact harg10.read_unread _
  iexact HS1

end Cert.Kernel.Hand

end
-- ==== Proof.KB.Frame.lean ====
/-
  The frame run of the kernel, with what it leaves named.

  After point 0 the first scratch array holds the body's first term of the features and the first weights, and keeps it. After point
  `n - 1` of the first sweep the second scratch array holds, in each 200-row block below `n`, the body's second term of that block of
  the matrix, the first scratch array, the first bias row and the second weights — and something in the rows above; from point 50 on
  all fifty blocks are filled, so it IS one array (`secondArr`), which the second sweep only reads. The result window is idle through
  the first sweep, its buffer handed back untouched; at point `t` of the second sweep the body leaves in it its third term of the
  point's block of the matrix, `secondArr` and the second bias row, and that is written back as block `t - 50` of the result.
-/
import proofs.«170348_g29824252903679_cont_9to1_81_5_alg».proof.Proof.KB.RunStart
import proofs.«170348_g29824252903679_cont_9to1_81_5_alg».proof.Proof.KB.RunFirst
import proofs.«170348_g29824252903679_cont_9to1_81_5_alg».proof.Proof.KB.RunSecond
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The grid point of a given number. -/
abbrev pt (n : ℕ) (h : n < 100) : Fin cfg0.N := ⟨n, lt_of_lt_of_eq h N_0.symm⟩

/-! ## What the two scratch arrays hold -/

/-- The first scratch array from point 0 on: the body's first term of the features and the first weights. -/
def firstArr (c : Dev nD) : Vec F S10000x128 .f32 := k0_pay1 (iblk m c 0 (pt 0 (by decide))) (iblk m c 2 (pt 0 (by decide)))

/-- At point 0 the first scratch array is the body's first term of that point's blocks. -/
theorem firstArr_at (c : Dev nD) (t : Fin cfg0.N) (hz : t.val = 0) : firstArr m c = k0_pay1 (iblk m c 0 t) (iblk m c 2 t) := by
  obtain rfl : t = pt 0 (by decide) := Fin.ext hz
  rfl

/-- The second scratch array holds its slices for the points below `n`: rows `200 t … 200 t + 199` are the body's second term at point `t`. -/
def FilledBelow (c : Dev nD) (n : ℕ) (d : Vec F S10000x64 .f32) : Prop :=
  ∀ t : Fin cfg0.N, t.val < n → t.val < 50 → ∀ (y : S10000x64.Idx) (x : S200x64.Idx),
    (y 0).val = 200 * t.val + (x 0).val → (y 1).val = (x 1).val →
    d y = k0_pay2 (iblk m c 1 t) (firstArr m c) (iblk m c 3 t) (iblk m c 4 t) x

/-- The second scratch array once all fifty slices are stored. -/
def secondArr (c : Dev nD) : Vec F S10000x64 .f32 := fun y =>
  k0_pay2 (iblk m c 1 (pt ((y 0).val / 200) (by have := idx2_lt0 y; omega))) (firstArr m c)
    (iblk m c 3 (pt ((y 0).val / 200) (by have := idx2_lt0 y; omega))) (iblk m c 4 (pt ((y 0).val / 200) (by have := idx2_lt0 y; omega)))
    (ix2 (⟨(y 0).val % 200, Nat.mod_lt _ (by decide)⟩ : Fin 200) (y 1 : Fin 64))

/-- Storing point `t`'s slice over an array filled below `t` fills it below `t + 1`: the new slice is the point's, the rows of the
    earlier points lie outside it and are kept. -/
theorem filled_step (c : Dev nD) (t : Fin cfg0.N) (ht : t.val < 50) (hi : inFirst (grid0.coords t)) (d : Vec F S10000x64 .f32)
    (hd : FilledBelow m c t.val d) :
    FilledBelow m c (t.val + 1) (withSlice scrB (Memref.isWhole_whole _) (grid0.coords t) hi d
      (k0_pay2 (iblk m c 1 t) (firstArr m c) (iblk m c 3 t) (iblk m c 4 t))) := by
  intro t' ht' h50 y x h0 h1
  by_cases e : t'.val = t.val
  · obtain rfl : t' = t := Fin.ext e
    exact withSlice_in scrB _ t' ht hi d _ y x h0 h1
  · have hx : (x 0).val < 200 := idx2_lt0 x
    rw [withSlice_out scrB _ t ht hi d _ y (Or.inl (by omega))]
    exact hd t' (by omega) h50 y x h0 h1

/-- From point 50 on nothing more is to fill. -/
theorem filled_keep (c : Dev nD) (n : ℕ) (hn : 50 ≤ n) (d : Vec F S10000x64 .f32) (hd : FilledBelow m c n d) :
    FilledBelow m c (n + 1) d := fun t' _ h50 y x h0 h1 => hd t' (by omega) h50 y x h0 h1

/-- An array filled below 50 or more is `secondArr`: row `i` is row `i % 200` of block `i / 200`. -/
theorem filled_all (c : Dev nD) (n : ℕ) (hn : 50 ≤ n) (d : Vec F S10000x64 .f32) (hd : FilledBelow m c n d) : d = secondArr m c :=
  funext fun y => hd (pt ((y 0).val / 200) (by have := idx2_lt0 y; omega))
    (by show (y 0).val / 200 < n; have := idx2_lt0 y; omega) (by show (y 0).val / 200 < 50; have := idx2_lt0 y; omega) y
    (ix2 (⟨(y 0).val % 200, Nat.mod_lt _ (by decide)⟩ : Fin 200) (y 1 : Fin 64))
    (by show (y 0).val = 200 * ((y 0).val / 200) + (y 0).val % 200; omega) rfl

/-! ## The invariant and the proof data -/

/-- The region's invariant before point `n`: before the first point what the launch hands over (both scratch arrays at anything);
    afterwards the first scratch array at `firstArr`, the second at some contents filled below `n`, the generator register at some state. -/
def Inv (c : Dev nD) (n : ℕ) : sProp 𝕄 :=
  if n = 0 then Pipeline.ΦA spec0 c
  else iprop(iprop(owns (c : Thread nD τ) scrA fullShare (firstArr m c) ∗ (∃ d, ⌜FilledBelow m c n d⌝ ∗ owns (c : Thread nD τ) scrB fullShare d)) ∗ (∃ r, prngReg c r))

theorem Inv_zero (c : Dev nD) : Inv m c 0 = Pipeline.ΦA spec0 c := if_pos rfl
theorem Inv_pos (c : Dev nD) (n : ℕ) (h : n ≠ 0) :
    Inv m c n = iprop(iprop(owns (c : Thread nD τ) scrA fullShare (firstArr m c) ∗ (∃ d, ⌜FilledBelow m c n d⌝ ∗ owns (c : Thread nD τ) scrB fullShare d)) ∗ (∃ r, prngReg c r)) := if_neg h

/-- The proof data of the one pipeline on core `c`: the arrays as the region finds them; after the body at point `t` each input's
    buffer at its block and the result's at the body's third term of the point's blocks and `secondArr`; the invariant above; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (iblk m c 1 t) (secondArr m c) (iblk m c 5 t)
  Φ t := Inv m c t.val
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
/-- What the body leaves in the result's buffer. -/
theorem after_out (c : Dev nD) (t : Fin cfg0.N) :
    (dats m 0 c).after 6 t = k0_pay3 (iblk m c 1 t) (secondArr m c) (iblk m c 5 t) := by dsimp only [dats]

/-- Each input's current buffer holds its block at every point, fetched there or not. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d
theorem before_in5 (c : Dev nD) (t : Fin cfg0.N) (d) : (dats m 0 c).before 5 t d = iblk m c 5 t :=
  before0_5_of m (dats m 0 c) (A_eq m c 5) (after_in5 m c) t d

/-! ## The body at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point, by the point's place in the two sweeps: at point 0 both scratch arrays come at anything and go back at
    `firstArr` and at an array filled below 1; at a later point of the first sweep the second goes back with the point's slice stored
    over what it held; at a point of the second sweep all fifty slices are there, so the body reads `secondArr`, and the result's
    buffer goes back at the body's third term. Through the first sweep the result's buffer is returned as it came. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).owesAt () t.succ = (dats m 0 c).owesAt () t.castSucc from rfl]
  rw [show (dats m 0 c).Φ t.succ = Inv m c (t.val + 1) from rfl, Inv_pos m c _ (Nat.succ_ne_zero _)]
  rw [show (dats m 0 c).Φ t.castSucc = Inv m c t.val from rfl]
  rw [show (dats m 0 c).leavesExact 0 t = owns (c : Thread nD τ) (mem0 t) fullShare ((dats m 0 c).after 0 t) from by
    unfold Dat.leavesExact; rw [live0 t], after_in0]
  rw [show (dats m 0 c).leavesExact 1 t = owns (c : Thread nD τ) (mem1 t) fullShare ((dats m 0 c).after 1 t) from by
    unfold Dat.leavesExact; rw [live1 t], after_in1]
  rw [show (dats m 0 c).leavesExact 2 t = owns (c : Thread nD τ) (mem2 t) fullShare ((dats m 0 c).after 2 t) from by
    unfold Dat.leavesExact; rw [live2 t], after_in2]
  rw [show (dats m 0 c).leavesExact 3 t = owns (c : Thread nD τ) (mem3 t) fullShare ((dats m 0 c).after 3 t) from by
    unfold Dat.leavesExact; rw [live3 t], after_in3]
  rw [show (dats m 0 c).leavesExact 4 t = owns (c : Thread nD τ) (mem4 t) fullShare ((dats m 0 c).after 4 t) from by
    unfold Dat.leavesExact; rw [live4 t], after_in4]
  rw [show (dats m 0 c).leavesExact 5 t = owns (c : Thread nD τ) (mem5 t) fullShare ((dats m 0 c).after 5 t) from by
    unfold Dat.leavesExact; rw [live5 t], after_in5]
  have hN : t.val < 100 := lt_of_lt_of_eq t.isLt (show cfg0.N = 100 from N_0)
  by_cases h1 : t.val < 50
  · -- the first sweep: the result window is idle and not written back
    have hnf : (cfg0.win 6).flush t = false := by
      cases hf : (cfg0.win 6).flush t
      · rfl
      · exact absurd ((flush6_iff t).mp hf) (by omega)
    rw [Dat.leavesExact_idle (dats m 0 c) 6 t ((idle6_iff t).mpr h1) hnf]
    have hc1 : inFirst (grid0.coords t) := (inFirst_iff t).mpr h1
    have hc2 : ¬inSecond (grid0.coords t) := fun h => absurd ((inSecond_iff t).mp h) (by omega)
    by_cases hz : t.val = 0
    · have hfa : firstArr m c = k0_pay1 (iblk m c 0 t) (iblk m c 2 t) := firstArr_at m c t hz
      rw [show Inv m c t.val = Pipeline.ΦA spec0 c from by rw [hz]; exact Inv_zero m c, rest_eq]
      iintro ⟨⟨⟨⟨%a0, HS0⟩, ⟨%b0, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runStart c (grid0.coords t) _ _ _ _ _ _ _ _ _ _ _ _ _ _ _ _ _ _ ((atStart_iff t).mpr hz) hc1 hc2 (iblk m c 0 t) (iblk m c 1 t) (iblk m c 2 t) (iblk m c 3 t) (iblk m c 4 t) (iblk m c 5 t) _ a0 b0 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · rw [hfa]; iexact HS0
          iexists _; isplitr; swap; · iexact HS1
          ipureintro
          have hfill := filled_step m c t h1 hc1 b0 (fun t' h => absurd h (by omega))
          rw [hfa] at hfill
          exact hfill
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Inv_pos m c _ hz]
      iintro ⟨⟨⟨HS0, ⟨%b0, %hb0, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runFirst c (grid0.coords t) _ _ _ _ _ _ _ _ _ _ _ _ _ _ _ _ _ _ (fun h => hz ((atStart_iff t).mp h)) hc1 hc2 (iblk m c 0 t) (iblk m c 1 t) (iblk m c 2 t) (iblk m c 3 t) (iblk m c 4 t) (iblk m c 5 t) _ (firstArr m c) b0 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexists _; isplitr; swap; · iexact HS1
          ipureintro
          exact filled_step m c t h1 hc1 b0 hb0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · -- the second sweep: the result window is live and written back
    have h2 : 50 ≤ t.val := by omega
    have hz : t.val ≠ 0 := by omega
    have hlive : cfg0.idle 6 (grid0.coords t) = false := by
      cases hi : cfg0.idle 6 (grid0.coords t)
      · rfl
      · exact absurd ((idle6_iff t).mp hi) h1
    rw [show (dats m 0 c).leavesExact 6 t = owns (c : Thread nD τ) (mem6 t) fullShare ((dats m 0 c).after 6 t) from by
      unfold Dat.leavesExact; rw [hlive], after_out]
    rw [Inv_pos m c _ hz]
    iintro ⟨⟨⟨HS0, ⟨%b0, %hb0, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl := filled_all m c t.val h2 b0 hb0
    iapply (runSecond c (grid0.coords t) _ _ _ _ _ _ _ _ _ _ _ _ _ _ _ _ _ _ (fun h => hz ((atStart_iff t).mp h)) (fun h => h1 ((inFirst_iff t).mp h)) ((inSecond_iff t).mpr h2) (iblk m c 0 t) (iblk m c 1 t) (iblk m c 2 t) (iblk m c 3 t) (iblk m c 4 t) (iblk m c 5 t) _ (firstArr m c) (secondArr m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexists _; isplitr; swap; · iexact HS1
        ipureintro
        exact filled_keep m c t.val h2 _ hb0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Inv m c 0 from rfl, Inv_zero]
  try exact Idealize.SL.BI.Entails.refl _

/-- After the last point the invariant gives that back: what the scratch arrays hold is forgotten. -/
theorem hout (c : Dev nD) : (dats m 0 c).Φ (Fin.last cfg0.N) ⊢ Pipeline.ΦA spec0 c := by
  rw [show (dats m 0 c).Φ (Fin.last cfg0.N) = Inv m c cfg0.N from rfl, Inv_pos m c _ (by rw [show cfg0.N = 100 from N_0]; decide), rest_eq]
  iintro ⟨⟨HS0, ⟨%b0, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, and every final state has every array of the pipeline at what the library
    computes from the proof data — the result array at its blocks written back in point order — and every other buffer as the
    region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.KI.Setup.lean ====
/-
  What the three cases of the body share.

  The grid is 2 × 50, walked row-major: point `t` has coordinates (t / 50, t % 50). The body has three conditionals on the
  coordinates: the first (both coordinates zero) holds at point 0 only and fills the first scratch array; the second (first
  coordinate zero) holds at points 0 … 49 — the first sweep — and stores one 200-row slice of the second scratch array; the third
  (first coordinate one) holds at points 50 … 99 — the second sweep — and stores the result block. The result window's block index is
  the product of the coordinates: it stays at block 0 through the first sweep, where the window is idle and nothing is written back,
  and is block t - 50 in the second sweep, where every point writes its block back.
-/
import proofs.«170348_g29824252903679_cont_9to1_81_5_alg».proof.Proof.Gen.KernelIdeal.Frame
import proofs.«170348_g29824252903679_cont_9to1_81_5_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three conditions, in closed form over the grid -/

/-- The body's first conditional: both grid coordinates are zero (the scalar chain the body computes, substituted). -/
abbrev atStart (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem atStart_iff : ∀ t : Fin cfg0.N, atStart (grid0.coords t) ↔ t.val = 0 :=
  (by decide +kernel : ∀ t : Fin grid0.N, atStart (grid0.coords t) ↔ t.val = 0)

/-- The body's second conditional: the first coordinate is zero — the first sweep. -/
abbrev inFirst (i : grid0.Coords) : Prop := k0_cond2 i = 1#1
theorem inFirst_iff : ∀ t : Fin cfg0.N, inFirst (grid0.coords t) ↔ t.val < 50 :=
  (by decide +kernel : ∀ t : Fin grid0.N, inFirst (grid0.coords t) ↔ t.val < 50)

/-- The body's third conditional: the first coordinate is one — the second sweep. -/
abbrev inSecond (i : grid0.Coords) : Prop := k0_cond3 i = 1#1
theorem inSecond_iff : ∀ t : Fin cfg0.N, inSecond (grid0.coords t) ↔ 50 ≤ t.val :=
  (by decide +kernel : ∀ t : Fin grid0.N, inSecond (grid0.coords t) ↔ 50 ≤ t.val)

/-! ## Where the windows are idle and where the result is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The result window is idle exactly through the first sweep, -/
theorem idle6_iff : ∀ t : Fin cfg0.N, cfg0.idle 6 (grid0.coords t) = true ↔ t.val < 50 :=
  (by decide +kernel : ∀ t : Fin grid0.N, cfg0.idle 6 (grid0.coords t) = true ↔ t.val < 50)
/-- and written back exactly at the points of the second sweep. -/
theorem flush6_iff : ∀ t : Fin cfg0.N, (cfg0.win 6).flush t = true ↔ 50 ≤ t.val :=
  (by decide +kernel : ∀ t : Fin grid0.N, win0_6.flush t = true ↔ 50 ≤ t.val)
/-- It is never fetched (an output). -/
theorem fetch6 : ∀ t : Fin cfg0.N, (cfg0.win 6).fetch t = false :=
  (by decide +kernel : ∀ t : Fin grid0.N, win0_6.fetch t = false)

/-! ## The memrefs the body is called with -/

abbrev mem0 (t : Fin cfg0.N) : Memref sig .tc .vmem S10000x128 .f32 := win0_0.stage (cfg0.slots t 0)
abbrev whole0 (t : Fin cfg0.N) : (mem0 t).IsWhole := hstage0_0 ((cfg0.slots t 0).cast nbuf0_0)
abbrev mem1 (t : Fin cfg0.N) : Memref sig .tc .vmem S200x10000 .f32 := win0_1.stage (cfg0.slots t 1)
abbrev whole1 (t : Fin cfg0.N) : (mem1 t).IsWhole := hstage0_1 ((cfg0.slots t 1).cast nbuf0_1)
abbrev mem2 (t : Fin cfg0.N) : Memref sig .tc .vmem S128x128 .f32 := win0_2.stage (cfg0.slots t 2)
abbrev whole2 (t : Fin cfg0.N) : (mem2 t).IsWhole := hstage0_2 ((cfg0.slots t 2).cast nbuf0_2)
abbrev mem3 (t : Fin cfg0.N) : Memref sig .tc .vmem S1x128 .f32 := win0_3.stage (cfg0.slots t 3)
abbrev whole3 (t : Fin cfg0.N) : (mem3 t).IsWhole := hstage0_3 ((cfg0.slots t 3).cast nbuf0_3)
abbrev mem4 (t : Fin cfg0.N) : Memref sig .tc .vmem S128x64 .f32 := win0_4.stage (cfg0.slots t 4)
abbrev whole4 (t : Fin cfg0.N) : (mem4 t).IsWhole := hstage0_4 ((cfg0.slots t 4).cast nbuf0_4)
abbrev mem5 (t : Fin cfg0.N) : Memref sig .tc .vmem S1x64 .f32 := win0_5.stage (cfg0.slots t 5)
abbrev whole5 (t : Fin cfg0.N) : (mem5 t).IsWhole := hstage0_5 ((cfg0.slots t 5).cast nbuf0_5)
abbrev mem6 (t : Fin cfg0.N) : Memref sig .tc .vmem S200x64 .f32 := win0_6.stage (cfg0.slots t 6)
abbrev whole6 (t : Fin cfg0.N) : (mem6 t).IsWhole := hstage0_6 ((cfg0.slots t 6).cast nbuf0_6)
/-- The two scratch arrays: whole buffers of the kernel's own. -/
abbrev scrA : Memref sig .tc .vmem S10000x128 .f32 := Memref.whole cc0_scratch0
abbrev scrB : Memref sig .tc .vmem S10000x64 .f32 := Memref.whole cc0_scratch1

/-- What the region hands the body besides the windows: the two scratch arrays, each at some contents, and the generator register. -/
theorem rest_eq (c : Dev nD) :
    (Pipeline.ΦA spec0 c : sProp 𝕄)
      = iprop(iprop((∃ d, owns (c : Thread nD τ) scrA fullShare d) ∗ (∃ d, owns (c : Thread nD τ) scrB fullShare d)) ∗ (∃ r, prngReg c r)) := by
  unfold Pipeline.ΦA; rw [scopedRest0_eq]; simp only [scrA, scrB, owns_whole]; try rfl

end Cert.KernelIdeal.Hand

end
-- ==== Proof.KI.Slice.lean ====
/-
  One 200-row slice of the second scratch array.

  At a point `t < 50` of the first sweep the body stores its second term into rows 200 t … 200 t + 199 (all 64 columns) of the
  10000 × 64 scratch array and leaves every other row as it was. `withSlice` is the array's contents after that store, as a
  function of the contents before and of the stored block; inside the slice it reads the stored block, outside it the old contents.
-/
import proofs.«170348_g29824252903679_cont_9to1_81_5_alg».proof.Proof.KI.Setup
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The slice's offsets at a point of the first sweep: row `200 t`, column 0 (the body computes the row as the second grid
    coordinate times 200; over the first sweep the second coordinate is the point itself). -/
theorem sliceOff : ∀ t : Fin cfg0.N, t.val < 50 → k0_off1 (grid0.coords t) = ![200 * t.val, 0] :=
  (by decide +kernel : ∀ t : Fin grid0.N, t.val < 50 → k0_off1 (grid0.coords t) = ![200 * t.val, 0])

/-- The scratch array after the store of the block `pay` into the slice at grid point `i`, over the contents `old`. -/
def withSlice (M : Memref sig .tc .vmem S10000x64 .f32) (hM : M.IsWhole) (i : grid0.Coords) (hi : inFirst i)
    (old : Vec F S10000x64 .f32) (pay : Vec F S200x64 .f32) : Vec F S10000x64 .f32 :=
  M.view.read (Elt F) (M.view.writes (Elt F) (hM.unread old)
    [(⟨Rect.unit (s := S10000x64) (k0_off1 i) S200x64.size (k0_off1_inb i hi), pay⟩ : View.Piece (Elt F) S10000x64 .f32)])

/-- Row `200 t + r` of the array after the store is row `r` of the stored block. -/
theorem withSlice_in (M : Memref sig .tc .vmem S10000x64 .f32) (hM : M.IsWhole) (t : Fin cfg0.N) (ht : t.val < 50)
    (hi : inFirst (grid0.coords t)) (old : Vec F S10000x64 .f32) (pay : Vec F S200x64 .f32)
    (y : S10000x64.Idx) (x : S200x64.Idx) (h0 : (y 0).val = 200 * t.val + (x 0).val) (h1 : (y 1).val = (x 1).val) :
    withSlice M hM (grid0.coords t) hi old pay y = pay x :=
  View.read_writes_cons_rows_of_mem M.view (hM.unread old) (k0_off1_inb (grid0.coords t) hi) pay [] y x (sliceOff t ht) h0 h1

/-- A row outside `200 t … 200 t + 199` is as it was. -/
theorem withSlice_out (M : Memref sig .tc .vmem S10000x64 .f32) (hM : M.IsWhole) (t : Fin cfg0.N) (ht : t.val < 50)
    (hi : inFirst (grid0.coords t)) (old : Vec F S10000x64 .f32) (pay : Vec F S200x64 .f32)
    (y : S10000x64.Idx) (h : (y 0).val < 200 * t.val ∨ 200 * t.val + 200 ≤ (y 0).val) :
    withSlice M hM (grid0.coords t) hi old pay y = old y :=
  (View.read_writes_cons_rows_of_not_mem M.view (hM.unread old) (k0_off1_inb (grid0.coords t) hi) pay [] y (sliceOff t ht) rfl h).trans
    (by rw [View.writes_nil, hM.read_unread])

/-- The two spellings of "all offsets zero" the body's whole-buffer loads and stores use. -/
theorem zeros2 : (![0, 0] : Fin 2 → ℕ) = fun _ => 0 := by
  funext a; match a with | ⟨0, _⟩ => rfl | ⟨1, _⟩ => rfl

end Cert.KernelIdeal.Hand

end
-- ==== Proof.KI.RunStart.lean ====
/-
  The body at the very first point.

  The first two conditionals are taken. The body first stores its first term — the features times the first weights — over the
  whole of the first scratch array, whatever that held; then, as at every point of the first sweep, it loads the matrix block, the
  first scratch array (now that product), the first bias row and the second weights and stores its second term of them into
  rows 0 … 199 of the second scratch array. The input buffers and the result's buffer are left as they were.
-/
import proofs.«170348_g29824252903679_cont_9to1_81_5_alg».proof.Proof.KI.Slice
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- From the inputs' buffers at their contents, the result's buffer at `x6`, the scratch arrays at anything (`xs0`, `xs1`), the body
    runs and hands back the first scratch array at its first term of the features and the first weights, and the second at `xs1`
    with the point's slice replaced by its second term of the matrix block, that product, the bias row and the second weights. -/
theorem runStart (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S200x64 .f32) (harg8 : arg8.IsWhole) (arg9 : Memref sig .tc .vmem S10000x128 .f32) (harg9 : arg9.IsWhole) (arg10 : Memref sig .tc .vmem S10000x64 .f32) (harg10 : arg10.IsWhole) (hc0 : atStart i) (hc1 : inFirst i) (hc2 : ¬inSecond i)
    (x0 : Vec F S10000x128 .f32) (x1 : Vec F S200x10000 .f32) (x2 : Vec F S128x128 .f32) (x3 : Vec F S1x128 .f32) (x4 : Vec F S128x64 .f32) (x5 : Vec F S1x64 .f32) (x6 : Vec F S200x64 .f32) (xs0 : Vec F S10000x128 .f32) (xs1 : Vec F S10000x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 x0 x2) ∗ owns (c : Thread nD τ) arg10 fullShare (withSlice arg10 harg10 i hc1 xs1 (k0_pay2 x1 (k0_pay1 x0 x2) x3 x4))) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; swap; · iexact HS0
    ipureintro
    sl_unfold_run_names
    simp only [View.readAt_eq_ld, harg2.read_unread, harg4.read_unread,
      View.ld_unit_zero (S := S10000x128) zeros2, View.ld_unit_zero (S := S128x128) zeros2]
    funext y
    exact View.read_writes_cons_unit_of_mem arg9.view (harg9.unread xs0) _ (k0_pay1 x0 x2) [] y y rfl
      (fun a => by match a with | ⟨0, _⟩ => exact (Nat.zero_add _).symm | ⟨1, _⟩ => exact (Nat.zero_add _).symm)
  iexists _; isplitr; swap; · iexact HS1
  ipureintro
  unfold withSlice
  sl_unfold_run_names
  simp only [View.readAt_eq_ld, harg2.read_unread, harg3.read_unread, harg4.read_unread, harg5.read_unread, harg6.read_unread,
    View.readCov_unit_zero arg9.view zeros2,
    View.ld_unit_zero (S := S10000x128) zeros2, View.ld_unit_zero (S := S128x128) zeros2, View.ld_unit_zero (S := S200x10000) zeros2,
    View.ld_unit_zero (S := S1x128) zeros2, View.ld_unit_zero (S := S128x64) zeros2]

end Cert.KernelIdeal.Hand

end
-- ==== Proof.KI.RunFirst.lean ====
/-
  The body at a point of the first sweep other than the very first point.

  Only the second conditional is taken: the body loads the 200 × 10000 block of the matrix, the whole first scratch array, the first
  bias row and the second weights, and stores its second term of them into the point's 200-row slice of the second scratch array.
  Every input buffer, the result's buffer and the first scratch array are left as they were.
-/
import proofs.«170348_g29824252903679_cont_9to1_81_5_alg».proof.Proof.KI.Slice
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- From the inputs' buffers at their contents, the result's buffer at `x6`, the first scratch array at `xs0` and the second at
    `xs1`, the body runs and hands everything back unchanged except the second scratch array, which holds `xs1` with the point's
    slice replaced by the body's second term of the matrix block, `xs0`, the bias row and the second weights. -/
theorem runFirst (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S200x64 .f32) (harg8 : arg8.IsWhole) (arg9 : Memref sig .tc .vmem S10000x128 .f32) (harg9 : arg9.IsWhole) (arg10 : Memref sig .tc .vmem S10000x64 .f32) (harg10 : arg10.IsWhole) (hc0 : ¬atStart i) (hc1 : inFirst i) (hc2 : ¬inSecond i)
    (x0 : Vec F S10000x128 .f32) (x1 : Vec F S200x10000 .f32) (x2 : Vec F S128x128 .f32) (x3 : Vec F S1x128 .f32) (x4 : Vec F S128x64 .f32) (x5 : Vec F S1x64 .f32) (x6 : Vec F S200x64 .f32) (xs0 : Vec F S10000x128 .f32) (xs1 : Vec F S10000x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare (withSlice arg10 harg10 i hc1 xs1 (k0_pay2 x1 xs0 x3 x4))) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; · ipureintro; exact harg9.read_unread _
    iexact HS0
  iexists _; isplitr; swap; · iexact HS1
  ipureintro
  unfold withSlice
  simp only [View.readAt_eq_ld, harg3.read_unread, harg9.read_unread, harg5.read_unread, harg6.read_unread,
    View.ld_unit_zero (S := S200x10000) zeros2, View.ld_unit_zero (S := S10000x128) zeros2, View.ld_unit_zero (S := S1x128) zeros2,
    View.ld_unit_zero (S := S128x64) zeros2]

end Cert.KernelIdeal.Hand

end
-- ==== Proof.KI.RunSecond.lean ====
/-
  The body at a point of the second sweep.

  Only the third conditional is taken: the body loads the 200 × 10000 block of the matrix, the WHOLE second scratch array and the
  second bias row, and stores its third term of them — the log-softmax rows — over the whole of the result's 200 × 64 buffer,
  whatever that held. The input buffers and both scratch arrays are left as they were.
-/
import proofs.«170348_g29824252903679_cont_9to1_81_5_alg».proof.Proof.KI.Slice
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- From the inputs' buffers at their contents, the result's buffer at anything (`x6`), the scratch arrays at `xs0` and `xs1`, the
    body runs and hands everything back unchanged except the result's buffer, which holds the body's third term of the matrix
    block, `xs1` and the second bias row. -/
theorem runSecond (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S200x64 .f32) (harg8 : arg8.IsWhole) (arg9 : Memref sig .tc .vmem S10000x128 .f32) (harg9 : arg9.IsWhole) (arg10 : Memref sig .tc .vmem S10000x64 .f32) (harg10 : arg10.IsWhole) (hc0 : ¬atStart i) (hc1 : ¬inFirst i) (hc2 : inSecond i)
    (x0 : Vec F S10000x128 .f32) (x1 : Vec F S200x10000 .f32) (x2 : Vec F S128x128 .f32) (x3 : Vec F S1x128 .f32) (x4 : Vec F S128x64 .f32) (x5 : Vec F S1x64 .f32) (x6 : Vec F S200x64 .f32) (xs0 : Vec F S10000x128 .f32) (xs1 : Vec F S10000x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x1 xs1 x5) ∗ owns (c : Thread nD τ) arg9 fullShare xs0 ∗ owns (c : Thread nD τ) arg10 fullShare xs1) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    simp only [View.readAt_eq_ld, harg3.read_unread, harg10.read_unread, harg7.read_unread,
      View.ld_unit_zero (S := S200x10000) zeros2, View.ld_unit_zero (S := S10000x64) zeros2, View.ld_unit_zero (S := S1x64) zeros2]
    funext y
    exact View.read_writes_cons_unit_of_mem arg8.view (harg8.unread x6) _ (k0_pay3 x1 xs1 x5) [] y y rfl
      (fun a => by match a with | ⟨0, _⟩ => exact (Nat.zero_add _).symm | ⟨1, _⟩ => exact (Nat.zero_add _).symm)
  isplitl [HS0]
  · iexists _; isplitr; · ipureintro; exact harg9.read_unread _
    iexact HS0
  iexists _; isplitr; · ipureintro; exact harg10.read_unread _
  iexact HS1

end Cert.KernelIdeal.Hand

end
-- ==== Proof.KI.Frame.lean ====
/-
  The frame run of the kernel, with what it leaves named.

  After point 0 the first scratch array holds the body's first term of the features and the first weights, and keeps it. After point
  `n - 1` of the first sweep the second scratch array holds, in each 200-row block below `n`, the body's second term of that block of
  the matrix, the first scratch array, the first bias row and the second weights — and something in the rows above; from point 50 on
  all fifty blocks are filled, so it IS one array (`secondArr`), which the second sweep only reads. The result window is idle through
  the first sweep, its buffer handed back untouched; at point `t` of the second sweep the body leaves in it its third term of the
  point's block of the matrix, `secondArr` and the second bias row, and that is written back as block `t - 50` of the result.
-/
import proofs.«170348_g29824252903679_cont_9to1_81_5_alg».proof.Proof.KI.RunStart
import proofs.«170348_g29824252903679_cont_9to1_81_5_alg».proof.Proof.KI.RunFirst
import proofs.«170348_g29824252903679_cont_9to1_81_5_alg».proof.Proof.KI.RunSecond
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The grid point of a given number. -/
abbrev pt (n : ℕ) (h : n < 100) : Fin cfg0.N := ⟨n, lt_of_lt_of_eq h N_0.symm⟩

/-! ## What the two scratch arrays hold -/

/-- The first scratch array from point 0 on: the body's first term of the features and the first weights. -/
def firstArr (c : Dev nD) : Vec F S10000x128 .f32 := k0_pay1 (iblk m c 0 (pt 0 (by decide))) (iblk m c 2 (pt 0 (by decide)))

/-- At point 0 the first scratch array is the body's first term of that point's blocks. -/
theorem firstArr_at (c : Dev nD) (t : Fin cfg0.N) (hz : t.val = 0) : firstArr m c = k0_pay1 (iblk m c 0 t) (iblk m c 2 t) := by
  obtain rfl : t = pt 0 (by decide) := Fin.ext hz
  rfl

/-- The second scratch array holds its slices for the points below `n`: rows `200 t … 200 t + 199` are the body's second term at point `t`. -/
def FilledBelow (c : Dev nD) (n : ℕ) (d : Vec F S10000x64 .f32) : Prop :=
  ∀ t : Fin cfg0.N, t.val < n → t.val < 50 → ∀ (y : S10000x64.Idx) (x : S200x64.Idx),
    (y 0).val = 200 * t.val + (x 0).val → (y 1).val = (x 1).val →
    d y = k0_pay2 (iblk m c 1 t) (firstArr m c) (iblk m c 3 t) (iblk m c 4 t) x

/-- The second scratch array once all fifty slices are stored. -/
def secondArr (c : Dev nD) : Vec F S10000x64 .f32 := fun y =>
  k0_pay2 (iblk m c 1 (pt ((y 0).val / 200) (by have := idx2_lt0 y; omega))) (firstArr m c)
    (iblk m c 3 (pt ((y 0).val / 200) (by have := idx2_lt0 y; omega))) (iblk m c 4 (pt ((y 0).val / 200) (by have := idx2_lt0 y; omega)))
    (ix2 (⟨(y 0).val % 200, Nat.mod_lt _ (by decide)⟩ : Fin 200) (y 1 : Fin 64))

/-- Storing point `t`'s slice over an array filled below `t` fills it below `t + 1`: the new slice is the point's, the rows of the
    earlier points lie outside it and are kept. -/
theorem filled_step (c : Dev nD) (t : Fin cfg0.N) (ht : t.val < 50) (hi : inFirst (grid0.coords t)) (d : Vec F S10000x64 .f32)
    (hd : FilledBelow m c t.val d) :
    FilledBelow m c (t.val + 1) (withSlice scrB (Memref.isWhole_whole _) (grid0.coords t) hi d
      (k0_pay2 (iblk m c 1 t) (firstArr m c) (iblk m c 3 t) (iblk m c 4 t))) := by
  intro t' ht' h50 y x h0 h1
  by_cases e : t'.val = t.val
  · obtain rfl : t' = t := Fin.ext e
    exact withSlice_in scrB _ t' ht hi d _ y x h0 h1
  · have hx : (x 0).val < 200 := idx2_lt0 x
    rw [withSlice_out scrB _ t ht hi d _ y (Or.inl (by omega))]
    exact hd t' (by omega) h50 y x h0 h1

/-- From point 50 on nothing more is to fill. -/
theorem filled_keep (c : Dev nD) (n : ℕ) (hn : 50 ≤ n) (d : Vec F S10000x64 .f32) (hd : FilledBelow m c n d) :
    FilledBelow m c (n + 1) d := fun t' _ h50 y x h0 h1 => hd t' (by omega) h50 y x h0 h1

/-- An array filled below 50 or more is `secondArr`: row `i` is row `i % 200` of block `i / 200`. -/
theorem filled_all (c : Dev nD) (n : ℕ) (hn : 50 ≤ n) (d : Vec F S10000x64 .f32) (hd : FilledBelow m c n d) : d = secondArr m c :=
  funext fun y => hd (pt ((y 0).val / 200) (by have := idx2_lt0 y; omega))
    (by show (y 0).val / 200 < n; have := idx2_lt0 y; omega) (by show (y 0).val / 200 < 50; have := idx2_lt0 y; omega) y
    (ix2 (⟨(y 0).val % 200, Nat.mod_lt _ (by decide)⟩ : Fin 200) (y 1 : Fin 64))
    (by show (y 0).val = 200 * ((y 0).val / 200) + (y 0).val % 200; omega) rfl

/-! ## The invariant and the proof data -/

/-- The region's invariant before point `n`: before the first point what the launch hands over (both scratch arrays at anything);
    afterwards the first scratch array at `firstArr`, the second at some contents filled below `n`, the generator register at some state. -/
def Inv (c : Dev nD) (n : ℕ) : sProp 𝕄 :=
  if n = 0 then Pipeline.ΦA spec0 c
  else iprop(iprop(owns (c : Thread nD τ) scrA fullShare (firstArr m c) ∗ (∃ d, ⌜FilledBelow m c n d⌝ ∗ owns (c : Thread nD τ) scrB fullShare d)) ∗ (∃ r, prngReg c r))

theorem Inv_zero (c : Dev nD) : Inv m c 0 = Pipeline.ΦA spec0 c := if_pos rfl
theorem Inv_pos (c : Dev nD) (n : ℕ) (h : n ≠ 0) :
    Inv m c n = iprop(iprop(owns (c : Thread nD τ) scrA fullShare (firstArr m c) ∗ (∃ d, ⌜FilledBelow m c n d⌝ ∗ owns (c : Thread nD τ) scrB fullShare d)) ∗ (∃ r, prngReg c r)) := if_neg h

/-- The proof data of the one pipeline on core `c`: the arrays as the region finds them; after the body at point `t` each input's
    buffer at its block and the result's at the body's third term of the point's blocks and `secondArr`; the invariant above; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (iblk m c 1 t) (secondArr m c) (iblk m c 5 t)
  Φ t := Inv m c t.val
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
/-- What the body leaves in the result's buffer. -/
theorem after_out (c : Dev nD) (t : Fin cfg0.N) :
    (dats m 0 c).after 6 t = k0_pay3 (iblk m c 1 t) (secondArr m c) (iblk m c 5 t) := by dsimp only [dats]

/-- Each input's current buffer holds its block at every point, fetched there or not. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d
theorem before_in5 (c : Dev nD) (t : Fin cfg0.N) (d) : (dats m 0 c).before 5 t d = iblk m c 5 t :=
  before0_5_of m (dats m 0 c) (A_eq m c 5) (after_in5 m c) t d

/-! ## The body at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point, by the point's place in the two sweeps: at point 0 both scratch arrays come at anything and go back at
    `firstArr` and at an array filled below 1; at a later point of the first sweep the second goes back with the point's slice stored
    over what it held; at a point of the second sweep all fifty slices are there, so the body reads `secondArr`, and the result's
    buffer goes back at the body's third term. Through the first sweep the result's buffer is returned as it came. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).owesAt () t.succ = (dats m 0 c).owesAt () t.castSucc from rfl]
  rw [show (dats m 0 c).Φ t.succ = Inv m c (t.val + 1) from rfl, Inv_pos m c _ (Nat.succ_ne_zero _)]
  rw [show (dats m 0 c).Φ t.castSucc = Inv m c t.val from rfl]
  rw [show (dats m 0 c).leavesExact 0 t = owns (c : Thread nD τ) (mem0 t) fullShare ((dats m 0 c).after 0 t) from by
    unfold Dat.leavesExact; rw [live0 t], after_in0]
  rw [show (dats m 0 c).leavesExact 1 t = owns (c : Thread nD τ) (mem1 t) fullShare ((dats m 0 c).after 1 t) from by
    unfold Dat.leavesExact; rw [live1 t], after_in1]
  rw [show (dats m 0 c).leavesExact 2 t = owns (c : Thread nD τ) (mem2 t) fullShare ((dats m 0 c).after 2 t) from by
    unfold Dat.leavesExact; rw [live2 t], after_in2]
  rw [show (dats m 0 c).leavesExact 3 t = owns (c : Thread nD τ) (mem3 t) fullShare ((dats m 0 c).after 3 t) from by
    unfold Dat.leavesExact; rw [live3 t], after_in3]
  rw [show (dats m 0 c).leavesExact 4 t = owns (c : Thread nD τ) (mem4 t) fullShare ((dats m 0 c).after 4 t) from by
    unfold Dat.leavesExact; rw [live4 t], after_in4]
  rw [show (dats m 0 c).leavesExact 5 t = owns (c : Thread nD τ) (mem5 t) fullShare ((dats m 0 c).after 5 t) from by
    unfold Dat.leavesExact; rw [live5 t], after_in5]
  have hN : t.val < 100 := lt_of_lt_of_eq t.isLt (show cfg0.N = 100 from N_0)
  by_cases h1 : t.val < 50
  · -- the first sweep: the result window is idle and not written back
    have hnf : (cfg0.win 6).flush t = false := by
      cases hf : (cfg0.win 6).flush t
      · rfl
      · exact absurd ((flush6_iff t).mp hf) (by omega)
    rw [Dat.leavesExact_idle (dats m 0 c) 6 t ((idle6_iff t).mpr h1) hnf]
    have hc1 : inFirst (grid0.coords t) := (inFirst_iff t).mpr h1
    have hc2 : ¬inSecond (grid0.coords t) := fun h => absurd ((inSecond_iff t).mp h) (by omega)
    by_cases hz : t.val = 0
    · have hfa : firstArr m c = k0_pay1 (iblk m c 0 t) (iblk m c 2 t) := firstArr_at m c t hz
      rw [show Inv m c t.val = Pipeline.ΦA spec0 c from by rw [hz]; exact Inv_zero m c, rest_eq]
      iintro ⟨⟨⟨⟨%a0, HS0⟩, ⟨%b0, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runStart c (grid0.coords t) _ _ _ _ _ _ _ _ _ _ _ _ _ _ _ _ _ _ ((atStart_iff t).mpr hz) hc1 hc2 (iblk m c 0 t) (iblk m c 1 t) (iblk m c 2 t) (iblk m c 3 t) (iblk m c 4 t) (iblk m c 5 t) _ a0 b0 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · rw [hfa]; iexact HS0
          iexists _; isplitr; swap; · iexact HS1
          ipureintro
          have hfill := filled_step m c t h1 hc1 b0 (fun t' h => absurd h (by omega))
          rw [hfa] at hfill
          exact hfill
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Inv_pos m c _ hz]
      iintro ⟨⟨⟨HS0, ⟨%b0, %hb0, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runFirst c (grid0.coords t) _ _ _ _ _ _ _ _ _ _ _ _ _ _ _ _ _ _ (fun h => hz ((atStart_iff t).mp h)) hc1 hc2 (iblk m c 0 t) (iblk m c 1 t) (iblk m c 2 t) (iblk m c 3 t) (iblk m c 4 t) (iblk m c 5 t) _ (firstArr m c) b0 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexists _; isplitr; swap; · iexact HS1
          ipureintro
          exact filled_step m c t h1 hc1 b0 hb0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · -- the second sweep: the result window is live and written back
    have h2 : 50 ≤ t.val := by omega
    have hz : t.val ≠ 0 := by omega
    have hlive : cfg0.idle 6 (grid0.coords t) = false := by
      cases hi : cfg0.idle 6 (grid0.coords t)
      · rfl
      · exact absurd ((idle6_iff t).mp hi) h1
    rw [show (dats m 0 c).leavesExact 6 t = owns (c : Thread nD τ) (mem6 t) fullShare ((dats m 0 c).after 6 t) from by
      unfold Dat.leavesExact; rw [hlive], after_out]
    rw [Inv_pos m c _ hz]
    iintro ⟨⟨⟨HS0, ⟨%b0, %hb0, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl := filled_all m c t.val h2 b0 hb0
    iapply (runSecond c (grid0.coords t) _ _ _ _ _ _ _ _ _ _ _ _ _ _ _ _ _ _ (fun h => hz ((atStart_iff t).mp h)) (fun h => h1 ((inFirst_iff t).mp h)) ((inSecond_iff t).mpr h2) (iblk m c 0 t) (iblk m c 1 t) (iblk m c 2 t) (iblk m c 3 t) (iblk m c 4 t) (iblk m c 5 t) _ (firstArr m c) (secondArr m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexists _; isplitr; swap; · iexact HS1
        ipureintro
        exact filled_keep m c t.val h2 _ hb0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Inv m c 0 from rfl, Inv_zero]
  try exact Idealize.SL.BI.Entails.refl _

/-- After the last point the invariant gives that back: what the scratch arrays hold is forgotten. -/
theorem hout (c : Dev nD) : (dats m 0 c).Φ (Fin.last cfg0.N) ⊢ Pipeline.ΦA spec0 c := by
  rw [show (dats m 0 c).Φ (Fin.last cfg0.N) = Inv m c cfg0.N from rfl, Inv_pos m c _ (by rw [show cfg0.N = 100 from N_0]; decide), rest_eq]
  iintro ⟨⟨HS0, ⟨%b0, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, and every final state has every array of the pipeline at what the library
    computes from the proof data — the result array at its blocks written back in point order — and every other buffer as the
    region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.Whole.lean ====
/-
  The kernel's result as ONE function of the whole argument arrays, built from the three pure terms its body stores.

  The grid sweeps twice over the fifty 200-row blocks of the square matrix. The first sweep fills, block by block, a
  10000 × 64 array `second`: its rows 200 b … 200 b + 199 are the body's second stored term at row block `b` of the matrix, at the
  10000 × 128 array `first` (the body's first stored term: the features times the first weights, computed once, at the very first
  point), at the first bias row and at the second weights. The second sweep writes rows 200 b … 200 b + 199 of the result as the
  body's third stored term at row block `b` of the matrix, at the WHOLE of `second`, and at the second bias row.

  A row `i` of a 10000-row array is row `i % 200` of block `i / 200`.
-/
import proofs.«170348_g29824252903679_cont_9to1_81_5_alg».proof.Proof.Gen.KernelIdeal.Skeleton
import Idealize.ShloMosaic.Lib.ValueIdx

noncomputable section

namespace Cert.KernelIdeal.Whole

open Idealize.ShloMosaic Idealize.ShloMosaic.ValueIdx Cert.KernelIdeal Cert.KernelIdeal.Gen

variable {F : FTy → Type} [FloatOps F]

/-- Rows `200 b … 200 b + 199` of the square matrix, as a 200 × 10000 block. -/
def rowBlock (adj : Vec F S10000x10000 .f32) (b : Fin 50) : Vec F S200x10000 .f32 :=
  fun y => adj (ix2 (⟨200 * b.val + (y 0).val, by have := idx2_lt0 y; have := b.isLt; omega⟩ : Fin 10000) (y 1 : Fin 10000))

/-- The block a row of a 10000-row array lies in. -/
def blockOf {n : Nat} (i : (⟨2, ![10000, n]⟩ : Shape).Idx) : Fin 50 := ⟨(i 0).val / 200, by have := idx2_lt0 i; omega⟩

/-- The row's place inside its block. -/
def rowIn {n : Nat} (i : (⟨2, ![10000, n]⟩ : Shape).Idx) : Fin 200 := ⟨(i 0).val % 200, Nat.mod_lt _ (by decide)⟩

/-- The features times the first weights: what the very first grid point leaves in the first scratch array. -/
def first (x : Vec F S10000x128 .f32) (w1 : Vec F S128x128 .f32) : Vec F S10000x128 .f32 := k0_pay1 x w1

/-- What the first sweep leaves in the second scratch array: block `b`'s rows are the second stored term at block `b` of the matrix. -/
def second (x : Vec F S10000x128 .f32) (adj : Vec F S10000x10000 .f32) (w1 : Vec F S128x128 .f32) (b1 : Vec F S1x128 .f32)
    (w2 : Vec F S128x64 .f32) : Vec F S10000x64 .f32 :=
  fun i => k0_pay2 (rowBlock adj (blockOf i)) (first x w1) b1 w2 (ix2 (rowIn i) (i 1 : Fin 64))

/-- What the second sweep writes: block `b`'s rows of the result are the third stored term at block `b` of the matrix and the whole of `second`. -/
def result (x : Vec F S10000x128 .f32) (adj : Vec F S10000x10000 .f32) (w1 : Vec F S128x128 .f32) (b1 : Vec F S1x128 .f32)
    (w2 : Vec F S128x64 .f32) (b2 : Vec F S1x64 .f32) : Vec F S10000x64 .f32 :=
  fun i => k0_pay3 (rowBlock adj (blockOf i)) (second x adj w1 b1 w2) b2 (ix2 (rowIn i) (i 1 : Fin 64))

end Cert.KernelIdeal.Whole

end
-- ==== Proof.KI.Blocks.lean ====
/-
  From the windows' blocks to the whole arrays, for the two-sweep graph convolution.

  The grid is 2 × 50, walked row-major: point t has coordinates (t / 50, t % 50). Five of the seven windows hold a whole array
  at every point (block index (0, 0)): the features, the two weight matrices and the two bias rows. The square matrix's window
  holds the 200-row block t % 50: rows 200 · (t % 50) … 200 · (t % 50) + 199. The result's window has row-block index
  (t % 50) · (t / 50): 0 through the first sweep, t - 50 through the second, where every point writes its block back; the fifty
  blocks of the second sweep are disjoint runs of 200 rows and fill the 10000 rows, row r lying in the block of point 50 + r / 200.

  A block's coordinate on an axis is (block index) × (block extent) + 1 × (coordinate inside the block). The two bias rows are
  the bias vectors reshaped [n] → [1, n] on the host before the region: a reshape keeps the row-major position, so row 0, column j
  of the row is entry j of the vector.
-/
import proofs.«170348_g29824252903679_cont_9to1_81_5_alg».proof.Proof.KI.Setup
import proofs.«170348_g29824252903679_cont_9to1_81_5_alg».proof.Proof.Whole
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Blocks

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable {F : FTy → Type} [FloatOps F] (m : (ℓ : Loc nD τ sig) → Buf (Elt F) ℓ) (c : Dev nD)

/-! ## Where each window's block sits, at every grid point -/

/-- The seven printed index maps, decided once over the 100 grid points (point `t` has coordinates `(t / 50, t % 50)`):
    the whole-array windows sit at block (0, 0); the square matrix's window at row block `t % 50`; the result's window at
    row block `(t % 50) · (t / 50)`, which is `t - 50` through the second sweep and `0` through the first. -/
theorem idx_facts : ∀ t : Fin cfg0.N,
    win0_0.index t (0 : Fin 2) = 0 ∧ win0_0.index t (1 : Fin 2) = 0
    ∧ win0_1.index t (0 : Fin 2) = t.val % 50 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ (50 ≤ t.val → win0_6.index t (0 : Fin 2) = t.val - 50) ∧ (t.val < 50 → win0_6.index t (0 : Fin 2) = 0)
    ∧ win0_6.index t (1 : Fin 2) = 0 :=
  (by decide +kernel : ∀ t : Fin grid0.N, _)

/-! ## The input windows' blocks as the arrays themselves

A block's coordinate on an axis is always (block index) × (block extent) + 1 × (the coordinate inside the block). -/

/-- The features' window holds the whole 10000 × 128 array at every point. -/
theorem blk0 (t : Fin cfg0.N) : (iblk m c 0 t : Vec F S10000x128 .f32) = V m c main_arg0 := by
  obtain ⟨e00, e01, -, -, -, -, -, -, -, -, -, -, -, -, -⟩ := idx_facts t
  funext y
  unfold iblk
  rw [View.read_apply]
  show V m c main_arg0 _ = V m c main_arg0 y
  congr 1
  funext a
  apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The first weights' window holds the whole 128 × 128 array at every point. -/
theorem blk2 (t : Fin cfg0.N) : (iblk m c 2 t : Vec F S128x128 .f32) = V m c main_arg2 := by
  obtain ⟨-, -, -, -, e20, e21, -, -, -, -, -, -, -, -, -⟩ := idx_facts t
  funext y
  unfold iblk
  rw [View.read_apply]
  show V m c main_arg2 _ = V m c main_arg2 y
  congr 1
  funext a
  apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The second weights' window holds the whole 128 × 64 array at every point. -/
theorem blk4 (t : Fin cfg0.N) : (iblk m c 4 t : Vec F S128x64 .f32) = V m c main_arg4 := by
  obtain ⟨-, -, -, -, -, -, -, -, e40, e41, -, -, -, -, -⟩ := idx_facts t
  funext y
  unfold iblk
  rw [View.read_apply]
  show V m c main_arg4 _ = V m c main_arg4 y
  congr 1
  funext a
  apply Fin.ext
  match a with
  | ⟨0, _⟩ => show win0_4.index t (0 : Fin 2) * 128 + 1 * (y 0).val = (y 0).val; omega
  | ⟨1, _⟩ => show win0_4.index t (1 : Fin 2) * 64 + 1 * (y 1).val = (y 1).val; omega

/-- The first bias row's window holds the whole 1 × 128 row at every point. -/
theorem blk3 (t : Fin cfg0.N) : (iblk m c 3 t : Vec F S1x128 .f32) = V m c main_v0 := by
  obtain ⟨-, -, -, -, -, -, e30, e31, -, -, -, -, -, -, -⟩ := idx_facts t
  funext y
  unfold iblk
  rw [View.read_apply]
  show V m c main_v0 _ = V m c main_v0 y
  congr 1
  funext a
  apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The second bias row's window holds the whole 1 × 64 row at every point. -/
theorem blk5 (t : Fin cfg0.N) : (iblk m c 5 t : Vec F S1x64 .f32) = V m c main_v1 := by
  obtain ⟨-, -, -, -, -, -, -, -, -, -, e50, e51, -, -, -⟩ := idx_facts t
  funext y
  unfold iblk
  rw [View.read_apply]
  show V m c main_v1 _ = V m c main_v1 y
  congr 1
  funext a
  apply Fin.ext
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- The square matrix's window at point `t` holds rows `200 · (t % 50) … 200 · (t % 50) + 199`. -/
theorem blk1 (t : Fin cfg0.N) :
    (iblk m c 1 t : Vec F S200x10000 .f32) = Whole.rowBlock (V m c main_arg1) ⟨t.val % 50, Nat.mod_lt _ (by decide)⟩ := by
  obtain ⟨-, -, e10, e11, -, -, -, -, -, -, -, -, -, -, -⟩ := idx_facts t
  funext y
  unfold iblk Whole.rowBlock
  rw [View.read_apply]
  show V m c main_arg1 _ = V m c main_arg1 _
  congr 1
  funext a
  apply Fin.ext
  match a with
  | ⟨0, _⟩ => show win0_1.index t (0 : Fin 2) * 200 + 1 * (y 0).val = 200 * (t.val % 50) + (y 0).val; omega
  | ⟨1, _⟩ => show win0_1.index t (1 : Fin 2) * 10000 + 1 * (y 1).val = (y 1).val; omega

/-! ## The bias rows are the bias vectors, reshaped on the host before the region -/

/-- The first bias row at column `j` is the first bias vector at `j`: a [128] → [1, 128] reshape keeps the row-major position. -/
theorem bias1 (j : Fin 128) :
    (V m c main_v0 : Vec F S1x128 .f32) (ix2 (0 : Fin 1) j) = (m ((c : Thread nD τ).loc main_arg3) : Vec F S128 .f32) (ix1 j) := by
  have e : (V m c main_v0 : S1x128.Idx → Elt F .f32)
      = shapeCast S1x128 (m ((c : Thread nD τ).loc main_arg3) : S128.Idx → Elt F .f32) Facts₀.shapeCasts_S128_S1x128 := by
    dsimp only [Gen.V, Gen.hostOps0]; after_results; rfl
  exact (congrFun e (ix2 (0 : Fin 1) j)).trans (shapeCast_a_1a_apply _ _ (0 : Fin 1) j)

/-- The second bias row at column `j` is the second bias vector at `j`. -/
theorem bias2 (j : Fin 64) :
    (V m c main_v1 : Vec F S1x64 .f32) (ix2 (0 : Fin 1) j) = (m ((c : Thread nD τ).loc main_arg5) : Vec F S64 .f32) (ix1 j) := by
  have e : (V m c main_v1 : S1x64.Idx → Elt F .f32)
      = shapeCast S1x64 (m ((c : Thread nD τ).loc main_arg5) : S64.Idx → Elt F .f32) Facts₀.shapeCasts_S64_S1x64 := by
    dsimp only [Gen.V, Gen.hostOps0]; after_results; rfl
  exact (congrFun e (ix2 (0 : Fin 1) j)).trans (shapeCast_a_1a_apply _ _ (0 : Fin 1) j)

/-! ## The result's window: where a block's entries land, and that the second sweep's blocks fill the array -/

/-- Through the second sweep the result's block at point `t` is rows `200 · (t - 50) … 200 · (t - 50) + 199`: entry `y` of
    the block lands at row `200 · (t - 50) + y₀`, column `y₁`. -/
theorem emb6 (t : Fin cfg0.N) (h : 50 ≤ t.val) (y : S200x64.Idx) :
    ∀ a : Fin 2, (((cfg0.win 6).blk t).view.emb y a).val = (if a = 0 then 200 * (t.val - 50) + (y 0).val else (y 1).val) := by
  obtain ⟨-, -, -, -, -, -, -, -, -, -, -, -, e60a, e60b, e61⟩ := idx_facts t
  have e60 := e60a h
  intro a
  match a with
  | ⟨0, _⟩ =>
    exact (show win0_6.index t (0 : Fin 2) * 200 + 1 * (y 0).val = 200 * (t.val - 50) + (y 0).val by omega).trans (if_pos rfl).symm
  | ⟨1, _⟩ =>
    exact (show win0_6.index t (1 : Fin 2) * 64 + 1 * (y 1).val = (y 1).val by omega).trans (if_neg (fun hh => absurd (congrArg Fin.val hh) Nat.one_ne_zero)).symm

/-- An index of the result array is in point `t`'s block iff each coordinate is in the block's range on its axis. -/
theorem mem_blk6 (t : Fin cfg0.N) (i : S10000x64.Idx) :
    i ∈ ((cfg0.win 6).blk t).view.set ↔ ∀ a : Fin 2, win0_6.index t a * S200x64.size a ≤ (i a).val ∧ (i a).val < win0_6.index t a * S200x64.size a + S200x64.size a := by
  show i ∈ ((View.whole main_v2).slice (win0_6.rect t)).set ↔ _
  rw [View.set_slice_whole, Rect.mem_set_unit]
  exact Iff.rfl

/-- Every entry of the result array is written back by some point of the second sweep: row `r` by point `50 + r / 200`. -/
theorem cover6 : ∀ i : (((cfg0.win 6).arr.view.loc (c.tc : Thread nD τ)).2.ty.Idx),
    ∃ t : Fin cfg0.N, (cfg0.win 6).flush t = true ∧ i ∈ ((cfg0.win 6).blk t).view.set := by
  intro (i : S10000x64.Idx)
  have hi0 : (i 0).val < 10000 := (i 0).isLt
  have hi1 : (i 1).val < 64 := (i 1).isLt
  have hN : cfg0.N = 100 := by decide
  have ht : 50 + (i 0).val / 200 < cfg0.N := by rw [hN]; omega
  obtain ⟨-, -, -, -, -, -, -, -, -, -, -, -, e60a, e60b, e61⟩ := idx_facts ⟨50 + (i 0).val / 200, ht⟩
  have e60 : win0_6.index ⟨50 + (i 0).val / 200, ht⟩ (0 : Fin 2) = (i 0).val / 200 :=
    (e60a (Nat.le_add_right _ _)).trans (Nat.add_sub_cancel_left 50 ((i 0).val / 200))
  refine ⟨⟨50 + (i 0).val / 200, ht⟩, (flush6_iff _).mpr (Nat.le_add_right _ _), ?_⟩
  rw [mem_blk6]
  intro a
  match a with
  | ⟨0, _⟩ =>
    show win0_6.index ⟨50 + (i 0).val / 200, ht⟩ (0 : Fin 2) * 200 ≤ (i 0).val ∧ (i 0).val < win0_6.index ⟨50 + (i 0).val / 200, ht⟩ (0 : Fin 2) * 200 + 200
    rw [e60]; omega
  | ⟨1, _⟩ =>
    show win0_6.index ⟨50 + (i 0).val / 200, ht⟩ (1 : Fin 2) * 64 ≤ (i 1).val ∧ (i 1).val < win0_6.index ⟨50 + (i 0).val / 200, ht⟩ (1 : Fin 2) * 64 + 64
    rw [e61]; omega

end Cert.KernelIdeal.Blocks

end
-- ==== Proof.KI.Value.lean ====
/-
  The idealized kernel's result array.

  Read at the arrays the region finds — the features, the matrix, the two weight arrays and the two bias rows — the first scratch array
  is `Whole.first` of them and the filled second scratch array is `Whole.second` of them: the block of the matrix a point of the first
  sweep loads is the row block of its number. At point `t` of the second sweep the block written back covers rows
  `200 (t - 50) … 200 (t - 50) + 199` of the result, and what is written there is those rows of `Whole.result`. The fifty blocks of
  the second sweep cover the result array, so after the run it is `Whole.result` of the region's arrays.
-/
import proofs.«170348_g29824252903679_cont_9to1_81_5_alg».proof.Proof.KI.Frame
import proofs.«170348_g29824252903679_cont_9to1_81_5_alg».proof.Proof.KI.Blocks
import proofs.«170348_g29824252903679_cont_9to1_81_5_alg».proof.Proof.Whole
import Idealize.ShloMosaic.Lib.Pipeline.Value
import Idealize.ShloMosaic.Lib.ValueIdx

set_option maxRecDepth 16384

noncomputable section

namespace Cert.KernelIdeal.Final

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand Cert.KernelIdeal.Blocks

variable {F : FTy → Type} [FloatOps F]
variable (m : (ℓ : Loc nD τ sig) → Buf (Elt F) ℓ) (ρ : Dev nD → PrngReg)

/-- The result as one function of the arrays the region finds. -/
def out (c : Dev nD) : Vec F S10000x64 .f32 :=
  Whole.result (V m c main_arg0) (V m c main_arg1) (V m c main_arg2) (V m c main_v0) (V m c main_arg4) (V m c main_v1)

/-- The first scratch array is the features times the first weights. -/
theorem firstArr_eq (c : Dev nD) : firstArr m c = Whole.first (V m c main_arg0) (V m c main_arg2) := by
  unfold firstArr Whole.first
  rw [blk0, blk2]

/-- The filled second scratch array: the block of the matrix loaded at point `b < 50` is row block `b`. -/
theorem secondArr_eq (c : Dev nD) :
    secondArr m c = Whole.second (V m c main_arg0) (V m c main_arg1) (V m c main_arg2) (V m c main_v0) (V m c main_arg4) := by
  funext y
  unfold secondArr Whole.second
  rw [blk1, blk3, blk4, firstArr_eq]
  have e : (⟨(pt ((y 0).val / 200) (by have := idx2_lt0 y; omega)).val % 50, Nat.mod_lt _ (by decide)⟩ : Fin 50) = Whole.blockOf y :=
    Fin.ext (by show (y 0).val / 200 % 50 = (y 0).val / 200; have := idx2_lt0 y; omega)
  rw [e]
  rfl

/-- What point `t` of the second sweep writes back is its block of `out`. -/
theorem flushed_eq (c : Dev nD) (t : Fin cfg0.N) (h : 50 ≤ t.val) :
    (dats m 0 c).flushed 6 t = ((cfg0.win 6).blk t).view.read (Elt F) (out m c) := by
  show (cfg0.win 6).cut (grid0.coords t) ((dats m 0 c).after 6 t) = _
  rw [after_out, blk1, blk5, secondArr_eq]
  funext y
  have hN : t.val < 100 := lt_of_lt_of_eq t.isLt (show cfg0.N = 100 from N_0)
  have h0 := emb6 t h y 0
  have h1 := emb6 t h y 1
  rw [if_pos rfl] at h0
  rw [if_neg (by decide)] at h1
  have hy0 : (y 0).val < 200 := idx2_lt0 y
  show k0_pay3 _ _ _ y = out m c (((cfg0.win 6).blk t).view.emb y)
  unfold out Whole.result
  have eb : Whole.blockOf (n := 64) (((cfg0.win 6).blk t).view.emb y) = ⟨t.val % 50, Nat.mod_lt _ (by decide)⟩ :=
    Fin.ext (by show ((((cfg0.win 6).blk t).view.emb y) 0).val / 200 = t.val % 50; rw [h0]; omega)
  have ey : ix2 (Whole.rowIn (n := 64) (((cfg0.win 6).blk t).view.emb y)) ((((cfg0.win 6).blk t).view.emb y) 1 : Fin 64) = y :=
    funext fun a => Fin.ext (by
      match a with
      | ⟨0, _⟩ => show ((((cfg0.win 6).blk t).view.emb y) 0).val % 200 = (y 0).val; rw [h0]; omega
      | ⟨1, _⟩ => exact h1)
  rw [eb]
  exact congrArg _ ey.symm

/-- After the run the result array is `out`. -/
theorem final (c : Dev nD) : (dats m 0 c).arrAt 6 cfg0.N = out m c :=
  (dats m 0 c).arrAt_eq_of_cover 6 (out m c) (fun t hf => flushed_eq m c t ((flush6_iff t).mp hf)) (cover6 c)

/-- The kernel's run with its result named: every weakly fair execution terminates, the result array ends at `out` and the argument
    arrays end unchanged. -/
theorem run_value : θ_run defs (onTc (τ := τ) (main (F := F))) ⟨m, fun _ => 0, ρ⟩ (fun r => ∀ c : Dev nD,
      r.2.mem ((c.tc : Thread nD τ).loc main_v2) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩) (run_main m ρ)

end Cert.KernelIdeal.Final

end
-- ==== Proof.RefTerm.lean ====
/-
  The reference's result as its last stage: the term the reference's run ends at — the composition of its 28 host operations applied
  to the argument arrays — is the stage `val_main_v11` of those arrays (each stage is defined as its operation applied to the stages
  before it, so the two sides are the same composition).
-/
import proofs.«170348_g29824252903679_cont_9to1_81_5_alg».proof.Proof.RefRunP
import proofs.«170348_g29824252903679_cont_9to1_81_5_alg».proof.Proof.RefReadP

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

/-- The term the run names `res_main_v11` is the last stage. -/
theorem val_main_v11_eq (m : (ℓ : Loc nD τ sig) → Buf (Elt F) ℓ) (c : Dev nD) :
    Cert.ReferenceIdeal.ValueP.res_main_v11 m c = val_main_v11 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.ValueP.res_main_v11; rfl

end Cert.ReferenceIdeal.ReadP

end
-- ==== Proof.FirstSweep.lean ====
/-
  The first sweep of the two-sweep graph convolution, against the whole computation.

  The kernel's first stored term is the features times the first weights, x · W1, computed once: a product into a zero
  accumulator, which over the extended reals is the plain sum ∑ₖ x(p, k) · W1(k, q), as is the reference's dot_general.

  Its second stored term, at row block b of the square matrix, is relu(block_b · (x · W1) + bias row) · W2 on 200 rows. Read at
  (r, c) it is ∑ₖ max(∑ₘ block_b(r, m) · (x · W1)(m, k) + bias(0, k), 0) · W2(k, c). Row r of block b is row 200 b + r of the
  matrix, and a row p of a 10000-row array lies in block p / 200 at place p % 200 with 200 · (p / 200) + p % 200 = p: so stacking
  the fifty blocks gives ∑ₖ max(∑ₘ adj(p, m) · (x · W1)(m, k) + b1(k), 0) · W2(k, c), which is the reference's
  dot_general (maximum (dot_general adj (dot_general x W1) + b1) 0) W2 read at (p, c).

  Nothing here uses more than re-indexing a sum along the one contracted axis and 0 + a = a; no finiteness is needed.
-/
import proofs.«170348_g29824252903679_cont_9to1_81_5_alg».proof.Proof.Whole
import proofs.«170348_g29824252903679_cont_9to1_81_5_alg».proof.Proof.RefReadP
import Idealize.ShloMosaic.Lib.ValueIdx
import Idealize.ShloMosaic.Lib.Pipeline.Value
import Idealize.ShloMosaic.Lib.ValueLayout
import Idealize.ShloMosaic.PureOps.Ideal.Laws

noncomputable section

namespace Cert.FirstSweep

open Idealize.ShloMosaic Idealize.ShloMosaic.ValueIdx Cert.KernelIdeal Cert.KernelIdeal.Gen
open scoped BigOperators

variable [Cert.KernelIdeal.Facts]

/-! ### The features (10000 × 128) times the first weights (128 × 128) -/

theorem lhsA_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsA_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhsA_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhsA_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Accumulating into zero, the product read at row `p`, column `q` is the sum over the 128 shared coordinates of
    (left at `(p, k)`) times (right at `(k, q)`): the contraction shape has one axis, and the sum is re-indexed along it. -/
theorem matmulA_apply (l : FVec Ideal S10000x128 .f32) (r : FVec Ideal S128x128 .f32) (p : Fin 10000) (q : Fin 128) :
    matmul dot_S10000x128_S128x128_S10000x128_1_0_0_1_n_n none l r (constant (F := Ideal) S10000x128 .f32 0x00000000#32) (ix2 p q)
      = ∑ k : Fin 128, l (ix2 p k) * r (ix2 k q) := by
  refine (Ideal.matmul_constant_zero_apply dot_S10000x128_S128x128_S10000x128_1_0_0_1_n_n none l r (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-! ### A 200-row block of the square matrix (200 × 10000) times a 10000 × 128 array -/

theorem lhsB_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem lhsB_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem rhsB_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem rhsB_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- Accumulating into zero, the product read at row `p`, column `q` is the sum over the 10000 shared coordinates of
    (left at `(p, k)`) times (right at `(k, q)`): the contraction shape has one axis, and the sum is re-indexed along it. -/
theorem matmulB_apply (l : FVec Ideal S200x10000 .f32) (r : FVec Ideal S10000x128 .f32) (p : Fin 200) (q : Fin 128) :
    matmul dot_S200x10000_S10000x128_S200x128_1_0_0_1_n_n none l r (constant (F := Ideal) S200x128 .f32 0x00000000#32) (ix2 p q)
      = ∑ k : Fin 10000, l (ix2 p k) * r (ix2 k q) := by
  refine (Ideal.matmul_constant_zero_apply dot_S200x10000_S10000x128_S200x128_1_0_0_1_n_n none l r (ix2 p q)).trans ?_
  rw [← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 p q) ((contrEquiv1 dot_S200x10000_S10000x128_S200x128_1_0_0_1_n_n 10000 rfl rfl).symm k) = ix2 p k := funext fun a => Fin.ext (by
    match a with
    | ⟨0, _⟩ => exact lhsB_0 _ _
    | ⟨1, _⟩ => exact (lhsB_1 _ _).trans hk)
  have er : dot_S200x10000_S10000x128_S200x128_1_0_0_1_n_n.rhsIdx (ix2 p q) ((contrEquiv1 dot_S200x10000_S10000x128_S200x128_1_0_0_1_n_n 10000 rfl rfl).symm k) = ix2 k q := funext fun a => Fin.ext (by
    match a with
    | ⟨0, _⟩ => exact (rhsB_0 _ _).trans hk
    | ⟨1, _⟩ => exact rhsB_1 _ _)
  rw [el, er]

/-! ### A 200 × 128 block times the second weights (128 × 64) -/

theorem lhsC_0 (i : S200x64.Idx) (q : dot_S200x128_S128x64_S200x64_1_0_0_1_n_n.contr.Idx) :
    (dot_S200x128_S128x64_S200x64_1_0_0_1_n_n.lhsIdx i q 0).val = (i 0).val := by
  unfold DotDims.lhsIdx
  rw [dif_neg (show ¬(0 : Fin S200x128.rank) ∈ dot_S200x128_S128x64_S200x64_1_0_0_1_n_n.lhsBatch by decide), dif_pos (show (0 : Fin S200x128.rank) ∈ dot_S200x128_S128x64_S200x64_1_0_0_1_n_n.lhsNonContracting by decide)]
  rfl
theorem lhsC_1 (i : S200x64.Idx) (q : dot_S200x128_S128x64_S200x64_1_0_0_1_n_n.contr.Idx) :
    (dot_S200x128_S128x64_S200x64_1_0_0_1_n_n.lhsIdx i q 1).val = (q ⟨0, by decide⟩).val :=
  dot_S200x128_S128x64_S200x64_1_0_0_1_n_n.lhsIdx_val_of_single rfl i q
theorem rhsC_0 (i : S200x64.Idx) (q : dot_S200x128_S128x64_S200x64_1_0_0_1_n_n.contr.Idx) :
    (dot_S200x128_S128x64_S200x64_1_0_0_1_n_n.rhsIdx i q 0).val = (q ⟨0, by decide⟩).val :=
  dot_S200x128_S128x64_S200x64_1_0_0_1_n_n.rhsIdx_val_of_single rfl i q
theorem rhsC_1 (i : S200x64.Idx) (q : dot_S200x128_S128x64_S200x64_1_0_0_1_n_n.contr.Idx) :
    (dot_S200x128_S128x64_S200x64_1_0_0_1_n_n.rhsIdx i q 1).val = (i 1).val := by
  unfold DotDims.rhsIdx
  rw [dif_neg (show ¬(1 : Fin S128x64.rank) ∈ dot_S200x128_S128x64_S200x64_1_0_0_1_n_n.rhsBatch by decide), dif_pos (show (1 : Fin S128x64.rank) ∈ dot_S200x128_S128x64_S200x64_1_0_0_1_n_n.rhsNonContracting by decide)]
  rfl

/-- Accumulating into zero, the product read at row `p`, column `q` is the sum over the 128 shared coordinates of
    (left at `(p, k)`) times (right at `(k, q)`): the contraction shape has one axis, and the sum is re-indexed along it. -/
theorem matmulC_apply (l : FVec Ideal S200x128 .f32) (r : FVec Ideal S128x64 .f32) (p : Fin 200) (q : Fin 64) :
    matmul dot_S200x128_S128x64_S200x64_1_0_0_1_n_n none l r (constant (F := Ideal) S200x64 .f32 0x00000000#32) (ix2 p q)
      = ∑ k : Fin 128, l (ix2 p k) * r (ix2 k q) := by
  refine (Ideal.matmul_constant_zero_apply dot_S200x128_S128x64_S200x64_1_0_0_1_n_n none l r (ix2 p q)).trans ?_
  rw [← Equiv.sum_comp (contrEquiv1 dot_S200x128_S128x64_S200x64_1_0_0_1_n_n 128 rfl rfl).symm]
  refine Finset.sum_congr rfl fun k _ => ?_
  have hk := contrEquiv1_symm_val dot_S200x128_S128x64_S200x64_1_0_0_1_n_n 128 rfl rfl k
  have el : dot_S200x128_S128x64_S200x64_1_0_0_1_n_n.lhsIdx (ix2 p q) ((contrEquiv1 dot_S200x128_S128x64_S200x64_1_0_0_1_n_n 128 rfl rfl).symm k) = ix2 p k := funext fun a => Fin.ext (by
    match a with
    | ⟨0, _⟩ => exact lhsC_0 _ _
    | ⟨1, _⟩ => exact (lhsC_1 _ _).trans hk)
  have er : dot_S200x128_S128x64_S200x64_1_0_0_1_n_n.rhsIdx (ix2 p q) ((contrEquiv1 dot_S200x128_S128x64_S200x64_1_0_0_1_n_n 128 rfl rfl).symm k) = ix2 k q := funext fun a => Fin.ext (by
    match a with
    | ⟨0, _⟩ => exact (rhsC_0 _ _).trans hk
    | ⟨1, _⟩ => exact rhsC_1 _ _)
  rw [el, er]

/-! ### The first two stored terms of the kernel's body, read at an index -/

/-- The first stored term at `(p, q)`: the identity reshape drops, and the product into zero is the plain sum. -/
theorem pay1_apply (x : Vec Ideal S10000x128 .f32) (w1 : Vec Ideal S128x128 .f32) (p : Fin 10000) (q : Fin 128) :
    k0_pay1 (F := Ideal) x w1 (ix2 p q) = ∑ k : Fin 128, x (ix2 p k) * w1 (ix2 k q) := by
  unfold k0_pay1
  refine (congrFun (shapeCast_self _ _) (ix2 p q)).trans ?_
  exact matmulA_apply x w1 p q

/-- The second stored term at `(r, c)`: a sum over the 128 hidden coordinates `k` of
    max(∑ₘ block(r, m) · y(m, k) + bias(0, k), 0) · w2(k, c). The two identity reshapes drop, the bias row is read at
    its one row, and the zero it is compared with stays the 32-bit zero word. -/
theorem pay2_apply (A : Vec Ideal S200x10000 .f32) (y : Vec Ideal S10000x128 .f32) (b : Vec Ideal S1x128 .f32)
    (w2 : Vec Ideal S128x64 .f32) (r : Fin 200) (c : Fin 64) :
    k0_pay2 (F := Ideal) A y b w2 (ix2 r c) =
      ∑ k : Fin 128, max ((∑ m : Fin 10000, A (ix2 r m) * y (ix2 m k)) + b (ix2 (0 : Fin 1) k))
        (Ideal.ofBits .f32 0x00000000#32) * w2 (ix2 k c) := by
  unfold k0_pay2
  refine (congrFun (shapeCast_self _ _) (ix2 r c)).trans ?_
  refine (matmulC_apply _ w2 r c).trans ?_
  refine Finset.sum_congr rfl fun k _ => ?_
  have h13 := matmulB_apply A y r k
  have h16 : broadcastTo S200x128 (shapeCast S1x128 b Facts₀.shapeCasts_S1x128_S1x128) Facts₀.broadcasts_S1x128_S200x128 (ix2 r k)
      = b (ix2 (0 : Fin 1) k) :=
    (broadcastTo_1b_ab_apply _ _ r k).trans (congrFun (shapeCast_self b _) _)
  exact congrArg (· * w2 (ix2 k c)) (congrArg₂ max (congrArg₂ (· + ·) h13 h16) rfl)

variable [Cert.ReferenceIdeal.Facts]

/-! ### The reference's hidden layer times the second weights, read at an index -/

/-- The reference's stage `dot_general (maximum (dot_general adj (dot_general x w1) + broadcast b1) 0) w2` at `(p, c)`:
    the same closed sum as the kernel's second stored term, with the whole matrix's row `p` in place of a block's row and
    the bias vector read at `k`. Each stage is read by its own lemma, outermost first; the composed index functions are
    the coordinate pairs. -/
theorem v6_apply (x : Vec Ideal S10000x128 .f32) (adj : Vec Ideal S10000x10000 .f32) (w1 : Vec Ideal S128x128 .f32)
    (b1 : Vec Ideal Cert.ReferenceIdeal.S128 .f32) (w2 : Vec Ideal S128x64 .f32) (p : Fin 10000) (c : Fin 64) :
    Cert.ReferenceIdeal.ReadP.val_main_v6 (F := Ideal) x adj w1 b1 w2 (ix2 p c) =
      ∑ k : Fin 128, max ((∑ m : Fin 10000, adj (ix2 p m) * Cert.ReferenceIdeal.ReadP.val_main_v0 (F := Ideal) x w1 (ix2 m k)) + b1 (ix1 k))
        (Ideal.ofBits .f32 0x00000000#32) * w2 (ix2 k c) := by
  refine (Cert.ReferenceIdeal.ReadP.val_main_v6_apply x adj w1 b1 w2 (ix2 p c)).trans ?_
  refine Finset.sum_congr rfl fun k _ => ?_
  have e6l : Cert.ReferenceIdeal.ReadP.lidx_main_v6 (ix2 p c) k = ix2 p k := funext fun a => Fin.ext (by match a with | ⟨0, _⟩ => rfl | ⟨1, _⟩ => rfl)
  have e6r : Cert.ReferenceIdeal.ReadP.ridx_main_v6 (ix2 p c) k = ix2 k c := funext fun a => Fin.ext (by match a with | ⟨0, _⟩ => rfl | ⟨1, _⟩ => rfl)
  rw [e6l, e6r]
  refine congrArg (· * w2 (ix2 k c)) ?_
  refine (Cert.ReferenceIdeal.ReadP.val_main_v5_apply x adj w1 b1 (ix2 p k)).trans ?_
  refine congrArg₂ max ?_ ?_
  · refine (Cert.ReferenceIdeal.ReadP.val_main_v4_apply x adj w1 b1 (ix2 p k)).trans ?_
    refine congrArg₂ (· + ·) ?_ ?_
    · refine (Cert.ReferenceIdeal.ReadP.val_main_v1_apply x adj w1 (ix2 p k)).trans ?_
      refine Finset.sum_congr rfl fun m _ => ?_
      have e1l : Cert.ReferenceIdeal.ReadP.lidx_main_v1 (ix2 p k) m = ix2 p m := funext fun a => Fin.ext (by match a with | ⟨0, _⟩ => rfl | ⟨1, _⟩ => rfl)
      have e1r : Cert.ReferenceIdeal.ReadP.ridx_main_v1 (ix2 p k) m = ix2 m k := funext fun a => Fin.ext (by match a with | ⟨0, _⟩ => rfl | ⟨1, _⟩ => rfl)
      rw [e1l, e1r]
    · refine (Cert.ReferenceIdeal.ReadP.val_main_v3_apply b1 (ix2 p k)).trans ?_
      refine (Cert.ReferenceIdeal.ReadP.val_main_v2_apply b1 _).trans ?_
      exact congrArg b1 (funext fun a => Fin.ext (by match a with | ⟨0, _⟩ => rfl))
  · exact Cert.ReferenceIdeal.ReadP.val_main_call0_v0_apply (F := Ideal) (ix2 p k)

/-! ### The first sweep is the reference's first six stages -/

/-- The features times the first weights: the kernel's product into a zero accumulator and the reference's
    `dot_general` are the same sum over the 128 shared coordinates. -/
theorem first_eq (x : Vec Ideal S10000x128 .f32) (w1 : Vec Ideal S128x128 .f32) :
    Cert.KernelIdeal.Whole.first (F := Ideal) x w1 = Cert.ReferenceIdeal.ReadP.val_main_v0 (F := Ideal) x w1 := by
  funext i
  obtain ⟨p, q, rfl⟩ : ∃ (p : Fin 10000) (q : Fin 128), i = ix2 p q := ⟨i 0, i 1, eq_ix2 i⟩
  unfold Cert.KernelIdeal.Whole.first
  refine (pay1_apply x w1 p q).trans ?_
  refine ((Cert.ReferenceIdeal.ReadP.val_main_v0_apply x w1 (ix2 p q)).trans ?_).symm
  refine Finset.sum_congr rfl fun k _ => ?_
  have el : Cert.ReferenceIdeal.ReadP.lidx_main_v0 (ix2 p q) k = ix2 p k := funext fun a => Fin.ext (by match a with | ⟨0, _⟩ => rfl | ⟨1, _⟩ => rfl)
  have er : Cert.ReferenceIdeal.ReadP.ridx_main_v0 (ix2 p q) k = ix2 k q := funext fun a => Fin.ext (by match a with | ⟨0, _⟩ => rfl | ⟨1, _⟩ => rfl)
  rw [el, er]

/-- Row `p` of the second scratch array is row `p % 200` of block `p / 200`'s second stored term, and that block's
    row `p % 200` is the matrix's row `200 · (p / 200) + p % 200 = p`: so the array is the reference's hidden layer times
    the second weights, given that the kernel's bias row is the reference's bias vector. -/
theorem second_eq (x : Vec Ideal S10000x128 .f32) (adj : Vec Ideal S10000x10000 .f32) (w1 : Vec Ideal S128x128 .f32)
    (w2 : Vec Ideal S128x64 .f32) (b1 : Vec Ideal Cert.ReferenceIdeal.S128 .f32) (b1r : Vec Ideal S1x128 .f32)
    (hb1 : ∀ j : Fin 128, b1r (ix2 (0 : Fin 1) j) = b1 (ix1 j)) :
    Cert.KernelIdeal.Whole.second (F := Ideal) x adj w1 b1r w2 = Cert.ReferenceIdeal.ReadP.val_main_v6 (F := Ideal) x adj w1 b1 w2 := by
  funext i
  obtain ⟨p, c, rfl⟩ : ∃ (p : Fin 10000) (c : Fin 64), i = ix2 p c := ⟨i 0, i 1, eq_ix2 i⟩
  unfold Cert.KernelIdeal.Whole.second
  rw [first_eq x w1]
  refine (pay2_apply _ _ b1r w2 (Cert.KernelIdeal.Whole.rowIn (ix2 p c)) c).trans ?_
  refine ((v6_apply x adj w1 b1 w2 p c).trans ?_).symm
  refine Finset.sum_congr rfl fun k _ => ?_
  refine congrArg (· * w2 (ix2 k c)) (congrArg₂ max (congrArg₂ (· + ·) (Finset.sum_congr rfl fun m _ => ?_) (hb1 k).symm) rfl)
  refine congrArg (· * Cert.ReferenceIdeal.ReadP.val_main_v0 (F := Ideal) x w1 (ix2 m k)) ?_
  unfold Cert.KernelIdeal.Whole.rowBlock
  refine congrArg adj (funext fun a => ?_)
  match a with
  | ⟨0, _⟩ => exact Fin.ext (by
      show p.val = 200 * (p.val / 200) + p.val % 200
      omega)
  | ⟨1, _⟩ => rfl

end Cert.FirstSweep

end
-- ==== Proof.SecondSweep.lean ====
/-
  The second sweep of the two-layer graph convolution: the log-softmax of the rows of (matrix × second-layer features + bias).

  Row i of the kernel's result is row i % 200 of what its third stored term makes of rows 200 (i / 200) … 200 (i / 200) + 199 of the
  matrix: the pre-activations h = (block × features) + bias row, the row maximum m of h, e = exp (h - m), l = log (row sum of e), and
  (h - m) - l. The reference does the same on the whole arrays. At the ideal values a product into a zero accumulator and the host's
  product are the plain sum over the contracted axis, a sum reduction is (initial value +) the sum over the reduced axis, and a
  maximum reduction from minus infinity is the fold of max over the reduced axis from the least extended real. So both sides are ONE
  function, `lsm`, of the same row: the matrix's row i times the features, plus the bias.
-/
import proofs.«170348_g29824252903679_cont_9to1_81_5_alg».proof.Proof.Whole
import proofs.«170348_g29824252903679_cont_9to1_81_5_alg».proof.Proof.RefReadP
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.SecondSweep

open Idealize.ShloMosaic Idealize.ShloMosaic.ValueIdx

variable [Cert.KernelIdeal.Facts] [Cert.ReferenceIdeal.Facts]

/-- The word of minus infinity is the least extended real. -/
theorem negInf : (FloatOps.ofBits .f32 0xFF800000#32 : Ideal .f32) = (⊥ : EReal) := by
  show Ideal.ofBits .f32 0xFF800000#32 = (⊥ : EReal)
  simp [Ideal.ofBits, Ideal.ieee]

/-- The maximum of a 64-entry row: the fold of `max` over its entries from the least extended real. -/
def rowMax (h : Fin 64 → EReal) : EReal := (Finset.univ : Finset (Fin 64)).fold max (⊥ : EReal) h

/-- The log-softmax of a 64-entry row at column `j`: the entry less the row maximum, less the logarithm of the sum of the exponentials of
    all the row's entries less the row maximum. -/
def lsm (h : Fin 64 → EReal) (j : Fin 64) : EReal :=
  (h j - rowMax h) - Ideal.log (∑ k : Fin 64, Ideal.exp (h k - rowMax h))

/-- The kernel's row maximum: a reduction with `max` over the second axis of a 200 × 64 block, from minus infinity, at row `r`, is the
    maximum of that row. -/
theorem kmax (v : FVec Ideal Cert.KernelIdeal.S200x64 .f32) (r : Fin 200) :
    multiReduction (F := Ideal) .maximumf [1] Cert.KernelIdeal.S200 v 0xFF800000#32 Cert.KernelIdeal.Facts₀.reduces_S200x64_S200 (.inl rfl) rfl (ix1 r)
      = rowMax (fun k => v (ix2 r k)) := by
  refine (Ideal.multiReduction_maximumf_single v _ _ _ _ (ix1 r)).trans ?_
  unfold rowMax
  rw [negInf]
  refine congrArg (fun f => Finset.fold max (⊥ : EReal) f (Finset.univ : Finset (Fin 64))) (funext fun k => ?_)
  exact congrArg v (funext fun c => Fin.ext (by match c with | ⟨0, _⟩ => rfl | ⟨1, _⟩ => rfl))

/-- The reference's row maximum: the host's reduction with a `max` body over the second axis of a 10000 × 64 array, from minus infinity,
    at row `i`, is the maximum of that row. -/
theorem hmax (X : FVec Ideal Cert.ReferenceIdeal.S10000x64 .f32) (i : Fin 10000) :
    Host.reduce (FloatOps.maximumf (F := Ideal) (φ := .f32)) X (constant (F := Ideal) Cert.ReferenceIdeal.S_ .f32 0xFF800000#32)
        Cert.ReferenceIdeal.Facts₀.reducesTo_S10000x64_S10000_d1 Cert.ReferenceIdeal.Facts₀.h_S_ (ix1 i)
      = rowMax (fun k => X (ix2 i k)) := by
  have h : Cert.ReferenceIdeal.S10000x64.Reduces [1] Cert.ReferenceIdeal.S10000 := by decide
  rw [Host.reduce_eq_fold_single (FloatOps.maximumf (F := Ideal) (φ := .f32)) X _ _ h _]
  unfold rowMax
  show Finset.fold max (FloatOps.ofBits .f32 0xFF800000#32 : Ideal .f32) _ _ = _
  rw [negInf]
  refine congrArg (fun f => Finset.fold max (⊥ : EReal) f (Finset.univ : Finset (Fin 64))) (funext fun k => ?_)
  exact congrArg X (funext fun c => Fin.ext (by match c with | ⟨0, _⟩ => rfl | ⟨1, _⟩ => rfl))

/-- A 200 × 1 column broadcast along the rows of a 200 × 64 block reads, at (r, c), the column's entry r. -/
theorem bcol (w : FVec Ideal Cert.KernelIdeal.S200x1 .f32) (r : Fin 200) (c : Fin 64) :
    broadcastTo Cert.KernelIdeal.S200x64 w Cert.KernelIdeal.Facts₀.broadcasts_S200x1_S200x64 (ix2 r c) = w (ix2 r (0 : Fin 1)) :=
  broadcastTo_apply w _ (ix2 r c) (ix2 r (0 : Fin 1)) (fun a => match a with
    | ⟨0, _⟩ => by show r.val = if (200 : Nat) = 1 then 0 else r.val; rw [if_neg (by decide)]
    | ⟨1, _⟩ => by show 0 = if (1 : Nat) = 1 then 0 else c.val; rw [if_pos rfl])

/-- A 200-vector cast to a 200 × 1 column reads, at (r, 0), the vector's entry r. -/
theorem cast1 (v : FVec Ideal Cert.KernelIdeal.S200 .f32) (r : Fin 200) :
    shapeCast Cert.KernelIdeal.S200x1 v Cert.KernelIdeal.Facts₀.shapeCasts_S200_S200x1 (ix2 r (0 : Fin 1)) = v (ix1 r) :=
  shapeCast_apply v _ (ix2 r (0 : Fin 1)) (ix1 r) (by
    rw [Shape.rowMajor_val_two, Shape.rowMajor_val_one]
    show r.val = r.val * 1 + 0
    omega)

/-- What the kernel's third stored term does to its 200 × 64 block `v` of pre-activations: the row maximum, the exponentials of the
    entries less it, their row sum, its logarithm, and the two subtractions. -/
def ktail (v17 : FVec Ideal Cert.KernelIdeal.S200x64 .f32) : FVec Ideal Cert.KernelIdeal.S200x64 .f32 :=
  have v18 : FVec Ideal Cert.KernelIdeal.S200 .f32 := multiReduction .maximumf [1] Cert.KernelIdeal.S200 v17 0xFF800000#32 Cert.KernelIdeal.Facts₀.reduces_S200x64_S200 (.inl rfl) rfl
  have v19 : FVec Ideal Cert.KernelIdeal.S200x1 .f32 := shapeCast Cert.KernelIdeal.S200x1 v18 Cert.KernelIdeal.Facts₀.shapeCasts_S200_S200x1
  have v20 : FVec Ideal Cert.KernelIdeal.S200x64 .f32 := broadcastTo Cert.KernelIdeal.S200x64 v19 Cert.KernelIdeal.Facts₀.broadcasts_S200x1_S200x64
  have v21 : FVec Ideal Cert.KernelIdeal.S200x64 .f32 := subf v17 v20
  have v22 : FVec Ideal Cert.KernelIdeal.S200x64 .f32 := exp v21
  have v23 : FVec Ideal Cert.KernelIdeal.S200 .f32 := multiReduction .add [1] Cert.KernelIdeal.S200 v22 0x00000000#32 Cert.KernelIdeal.Facts₀.reduces_S200x64_S200 (.inl rfl) rfl
  have v24 : FVec Ideal Cert.KernelIdeal.S200x1 .f32 := shapeCast Cert.KernelIdeal.S200x1 v23 Cert.KernelIdeal.Facts₀.shapeCasts_S200_S200x1
  have v25 : FVec Ideal Cert.KernelIdeal.S200x1 .f32 := log v24
  have v26 : FVec Ideal Cert.KernelIdeal.S200x64 .f32 := broadcastTo Cert.KernelIdeal.S200x64 v19 Cert.KernelIdeal.Facts₀.broadcasts_S200x1_S200x64
  have v27 : FVec Ideal Cert.KernelIdeal.S200x64 .f32 := subf v17 v26
  have v28 : FVec Ideal Cert.KernelIdeal.S200x64 .f32 := broadcastTo Cert.KernelIdeal.S200x64 v25 Cert.KernelIdeal.Facts₀.broadcasts_S200x1_S200x64
  have v29 : FVec Ideal Cert.KernelIdeal.S200x64 .f32 := subf v27 v28
  v29

/-- Read at (r, j) it is the log-softmax of row r of the block, at column j. -/
theorem ktail_apply (v : FVec Ideal Cert.KernelIdeal.S200x64 .f32) (r : Fin 200) (j : Fin 64) :
    ktail v (ix2 r j) = lsm (fun c => v (ix2 r c)) j := by
  have hm : ∀ c : Fin 64,
      broadcastTo Cert.KernelIdeal.S200x64 (shapeCast Cert.KernelIdeal.S200x1
          (multiReduction (F := Ideal) .maximumf [1] Cert.KernelIdeal.S200 v 0xFF800000#32 Cert.KernelIdeal.Facts₀.reduces_S200x64_S200 (.inl rfl) rfl)
          Cert.KernelIdeal.Facts₀.shapeCasts_S200_S200x1) Cert.KernelIdeal.Facts₀.broadcasts_S200x1_S200x64 (ix2 r c)
        = rowMax (fun k => v (ix2 r k)) :=
    fun c => (bcol _ r c).trans ((cast1 _ r).trans (kmax v r))
  unfold lsm
  refine congrArg₂ (fun a b : EReal => a - b) (congrArg (fun m : EReal => v (ix2 r j) - m) (hm j)) ?_
  refine (bcol _ r j).trans ?_
  refine congrArg Ideal.log ((cast1 _ r).trans ?_)
  refine (Ideal.multiReduction_add_single _ _ _ _ _ (ix1 r)).trans ?_
  refine Finset.sum_congr rfl fun k _ => ?_
  have e : Cert.KernelIdeal.Facts₀.reduces_S200x64_S200.lift (ix1 r) k = ix2 r (⟨k.val, k.isLt⟩ : Fin 64) :=
    funext fun c => Fin.ext (by match c with | ⟨0, _⟩ => rfl | ⟨1, _⟩ => rfl)
  rw [e]
  exact congrArg (fun m : EReal => Ideal.exp (v (ix2 r (⟨k.val, k.isLt⟩ : Fin 64)) - m)) (hm ⟨k.val, k.isLt⟩)

/-- The pre-activations of the kernel's third stored term: the block of the matrix times the second-layer features, plus the bias row
    down every row. -/
def kH (A : Vec Ideal Cert.KernelIdeal.S200x10000 .f32) (s2 : Vec Ideal Cert.KernelIdeal.S10000x64 .f32)
    (b2r : Vec Ideal Cert.KernelIdeal.S1x64 .f32) : FVec Ideal Cert.KernelIdeal.S200x64 .f32 :=
  addf (matmul (φ₁ := .f32) (φ₂ := .f32) Cert.KernelIdeal.dot_S200x10000_S10000x64_S200x64_1_0_0_1_n_n none A s2 (constant Cert.KernelIdeal.S200x64 .f32 0x00000000#32))
    (broadcastTo Cert.KernelIdeal.S200x64 (shapeCast Cert.KernelIdeal.S1x64 b2r Cert.KernelIdeal.Facts₀.shapeCasts_S1x64_S1x64) Cert.KernelIdeal.Facts₀.broadcasts_S1x64_S200x64)

/-- The third stored term is that tail of those pre-activations. -/
theorem pay3_eq (A : Vec Ideal Cert.KernelIdeal.S200x10000 .f32) (s2 : Vec Ideal Cert.KernelIdeal.S10000x64 .f32)
    (b2r : Vec Ideal Cert.KernelIdeal.S1x64 .f32) : Cert.KernelIdeal.Gen.k0_pay3 (F := Ideal) A s2 b2r = ktail (kH A s2 b2r) := rfl

/-- The indices the block product reads: at output (r, c) and contraction position q, the block at (r, q) and the features at (q, c). -/
theorem klhs0 (i : Cert.KernelIdeal.S200x64.Idx) (q : Cert.KernelIdeal.dot_S200x10000_S10000x64_S200x64_1_0_0_1_n_n.contr.Idx) :
    (Cert.KernelIdeal.dot_S200x10000_S10000x64_S200x64_1_0_0_1_n_n.lhsIdx i q 0).val = (i 0).val := by
  unfold DotDims.lhsIdx
  rw [dif_neg (show ¬(0 : Fin Cert.KernelIdeal.S200x10000.rank) ∈ Cert.KernelIdeal.dot_S200x10000_S10000x64_S200x64_1_0_0_1_n_n.lhsBatch by decide), dif_pos (show (0 : Fin Cert.KernelIdeal.S200x10000.rank) ∈ Cert.KernelIdeal.dot_S200x10000_S10000x64_S200x64_1_0_0_1_n_n.lhsNonContracting by decide)]
  rfl
theorem klhs1 (i : Cert.KernelIdeal.S200x64.Idx) (q : Cert.KernelIdeal.dot_S200x10000_S10000x64_S200x64_1_0_0_1_n_n.contr.Idx) :
    (Cert.KernelIdeal.dot_S200x10000_S10000x64_S200x64_1_0_0_1_n_n.lhsIdx i q 1).val = (q ⟨0, by decide⟩).val :=
  Cert.KernelIdeal.dot_S200x10000_S10000x64_S200x64_1_0_0_1_n_n.lhsIdx_val_of_single rfl i q
theorem krhs0 (i : Cert.KernelIdeal.S200x64.Idx) (q : Cert.KernelIdeal.dot_S200x10000_S10000x64_S200x64_1_0_0_1_n_n.contr.Idx) :
    (Cert.KernelIdeal.dot_S200x10000_S10000x64_S200x64_1_0_0_1_n_n.rhsIdx i q 0).val = (q ⟨0, by decide⟩).val :=
  Cert.KernelIdeal.dot_S200x10000_S10000x64_S200x64_1_0_0_1_n_n.rhsIdx_val_of_single rfl i q
theorem krhs1 (i : Cert.KernelIdeal.S200x64.Idx) (q : Cert.KernelIdeal.dot_S200x10000_S10000x64_S200x64_1_0_0_1_n_n.contr.Idx) :
    (Cert.KernelIdeal.dot_S200x10000_S10000x64_S200x64_1_0_0_1_n_n.rhsIdx i q 1).val = (i 1).val := by
  unfold DotDims.rhsIdx
  rw [dif_neg (show ¬(1 : Fin Cert.KernelIdeal.S10000x64.rank) ∈ Cert.KernelIdeal.dot_S200x10000_S10000x64_S200x64_1_0_0_1_n_n.rhsBatch by decide), dif_pos (show (1 : Fin Cert.KernelIdeal.S10000x64.rank) ∈ Cert.KernelIdeal.dot_S200x10000_S10000x64_S200x64_1_0_0_1_n_n.rhsNonContracting by decide)]
  rfl

/-- The pre-activations at (r, c): the sum over the 10000 columns of the block's row r times the features' column c, plus the bias at c. -/
theorem kH_apply (A : Vec Ideal Cert.KernelIdeal.S200x10000 .f32) (s2 : Vec Ideal Cert.KernelIdeal.S10000x64 .f32)
    (b2r : Vec Ideal Cert.KernelIdeal.S1x64 .f32) (r : Fin 200) (c : Fin 64) :
    kH A s2 b2r (ix2 r c) = (∑ k : Fin 10000, A (ix2 r k) * s2 (ix2 k c)) + b2r (ix2 (0 : Fin 1) c) := by
  unfold kH
  refine congrArg₂ (fun a b : EReal => a + b) ?_ ?_
  · refine (Ideal.matmul_constant_zero_apply _ _ _ _ _).trans ?_
    rw [← Equiv.sum_comp (contrEquiv1 Cert.KernelIdeal.dot_S200x10000_S10000x64_S200x64_1_0_0_1_n_n 10000 rfl rfl).symm]
    refine Finset.sum_congr rfl fun k _ => ?_
    have hk := contrEquiv1_symm_val Cert.KernelIdeal.dot_S200x10000_S10000x64_S200x64_1_0_0_1_n_n 10000 rfl rfl k
    have el : Cert.KernelIdeal.dot_S200x10000_S10000x64_S200x64_1_0_0_1_n_n.lhsIdx (ix2 r c) ((contrEquiv1 Cert.KernelIdeal.dot_S200x10000_S10000x64_S200x64_1_0_0_1_n_n 10000 rfl rfl).symm k) = ix2 r k := funext fun a => Fin.ext (by
      match a with
      | ⟨0, _⟩ => exact klhs0 _ _
      | ⟨1, _⟩ => exact (klhs1 _ _).trans hk)
    have er : Cert.KernelIdeal.dot_S200x10000_S10000x64_S200x64_1_0_0_1_n_n.rhsIdx (ix2 r c) ((contrEquiv1 Cert.KernelIdeal.dot_S200x10000_S10000x64_S200x64_1_0_0_1_n_n 10000 rfl rfl).symm k) = ix2 k c := funext fun a => Fin.ext (by
      match a with
      | ⟨0, _⟩ => exact (krhs0 _ _).trans hk
      | ⟨1, _⟩ => exact krhs1 _ _)
    rw [el, er]
  · exact (broadcastTo_1b_ab_apply _ _ r c).trans (congrFun (shapeCast_self b2r _) _)

/-- The kernel's result at (i, j), once the first sweep's array is known to be `V`: the log-softmax, at column j, of the row whose entry c
    is the matrix's row i times column c of `V`, plus the bias row at c. Row i is row i % 200 of block i / 200, and
    200 * (i / 200) + i % 200 = i. -/
theorem result_apply (x : Vec Ideal Cert.KernelIdeal.S10000x128 .f32) (adj : Vec Ideal Cert.KernelIdeal.S10000x10000 .f32) (w1 : Vec Ideal Cert.KernelIdeal.S128x128 .f32)
    (w2 : Vec Ideal Cert.KernelIdeal.S128x64 .f32) (b1r : Vec Ideal Cert.KernelIdeal.S1x128 .f32) (b2r : Vec Ideal Cert.KernelIdeal.S1x64 .f32)
    (V : Vec Ideal Cert.KernelIdeal.S10000x64 .f32) (hs : Cert.KernelIdeal.Whole.second (F := Ideal) x adj w1 b1r w2 = V)
    (i0 : Fin 10000) (j : Fin 64) :
    Cert.KernelIdeal.Whole.result (F := Ideal) x adj w1 b1r w2 b2r (ix2 i0 j)
      = lsm (fun c => (∑ k : Fin 10000, adj (ix2 i0 k) * V (ix2 k c)) + b2r (ix2 (0 : Fin 1) c)) j := by
  unfold Cert.KernelIdeal.Whole.result
  rw [hs]
  show Cert.KernelIdeal.Gen.k0_pay3 (F := Ideal) (Cert.KernelIdeal.Whole.rowBlock adj (Cert.KernelIdeal.Whole.blockOf (ix2 i0 j)))
      V b2r (ix2 (Cert.KernelIdeal.Whole.rowIn (ix2 i0 j)) j) = _
  rw [pay3_eq]
  refine (ktail_apply _ _ j).trans ?_
  refine congrArg (fun h : Fin 64 → EReal => lsm h j) (funext fun c => ?_)
  refine (kH_apply _ _ _ _ c).trans ?_
  refine congrArg (fun a : EReal => a + b2r (ix2 (0 : Fin 1) c)) (Finset.sum_congr rfl fun k _ => ?_)
  refine congrArg (fun a : EReal => a * V (ix2 k c)) ?_
  show adj (ix2 (⟨200 * (i0.val / 200) + i0.val % 200, _⟩ : Fin 10000) k) = adj (ix2 i0 k)
  exact congrArg (fun a : Fin 10000 => adj (ix2 a k)) (Fin.ext (by show 200 * (i0.val / 200) + i0.val % 200 = i0.val; omega))

section Reference
open Cert.ReferenceIdeal.ReadP

variable (x : Vec Ideal Cert.ReferenceIdeal.S10000x128 .f32) (adj : Vec Ideal Cert.ReferenceIdeal.S10000x10000 .f32)
  (w1 : Vec Ideal Cert.ReferenceIdeal.S128x128 .f32) (b1 : Vec Ideal Cert.ReferenceIdeal.S128 .f32)
  (w2 : Vec Ideal Cert.ReferenceIdeal.S128x64 .f32) (b2 : Vec Ideal Cert.ReferenceIdeal.S64 .f32)

/-- The reference's pre-activations at (i, c): the sum over the 10000 columns of the matrix's row i times the second-layer features'
    column c, plus the bias at c. -/
theorem rH_apply (i : Fin 10000) (c : Fin 64) :
    val_main_v10 (F := Ideal) x adj w1 b1 w2 b2 (ix2 i c)
      = (∑ k : Fin 10000, adj (ix2 i k) * val_main_v6 (F := Ideal) x adj w1 b1 w2 (ix2 k c)) + b2 (ix1 c) := by
  show val_main_v7 (F := Ideal) x adj w1 b1 w2 (ix2 i c) + val_main_v9 (F := Ideal) b2 (ix2 i c) = _
  rw [val_main_v7_apply, val_main_v9_apply, val_main_v8_apply]
  refine congrArg₂ (fun a b : EReal => a + b) (Finset.sum_congr rfl fun k _ => ?_) (congrArg b2 (funext fun a => by match a with | ⟨0, _⟩ => rfl))
  exact congrArg₂ (fun a b : EReal => a * b)
    (congrArg adj (funext fun a => by match a with | ⟨0, _⟩ => rfl | ⟨1, _⟩ => rfl))
    (congrArg (val_main_v6 (F := Ideal) x adj w1 b1 w2) (funext fun a => by match a with | ⟨0, _⟩ => rfl | ⟨1, _⟩ => rfl))

/-- The reference's row maximum, after its maximum with minus infinity, is the maximum of row i of its pre-activations. -/
theorem rM_apply (i : Fin 10000) :
    val_main_call1_v2 (F := Ideal) x adj w1 b1 w2 b2 (ix1 i) = rowMax (fun k => val_main_v10 (F := Ideal) x adj w1 b1 w2 b2 (ix2 i k)) := by
  have h1 : val_main_call1_v1 (F := Ideal) (ix1 i) = (⊥ : EReal) := (val_main_call1_v1_apply (F := Ideal) (ix1 i)).trans negInf
  have h0 : val_main_call1_v0 (F := Ideal) x adj w1 b1 w2 b2 (ix1 i) = rowMax (fun k => val_main_v10 (F := Ideal) x adj w1 b1 w2 b2 (ix2 i k)) :=
    hmax (val_main_v10 (F := Ideal) x adj w1 b1 w2 b2) i
  show max (val_main_call1_v1 (F := Ideal) (ix1 i)) (val_main_call1_v0 (F := Ideal) x adj w1 b1 w2 b2 (ix1 i)) = _
  rw [h1, h0]
  exact max_bot_left _

/-- The reference's result at (i, j) is the log-softmax of row i of its pre-activations, at column j. -/
theorem ref_apply (i : Fin 10000) (j : Fin 64) :
    val_main_v11 (F := Ideal) x adj w1 b1 w2 b2 (ix2 i j) = lsm (fun c => val_main_v10 (F := Ideal) x adj w1 b1 w2 b2 (ix2 i c)) j := by
  have hm : ∀ c : Fin 64, val_main_call1_v4 (F := Ideal) x adj w1 b1 w2 b2 (ix2 i c)
      = rowMax (fun k => val_main_v10 (F := Ideal) x adj w1 b1 w2 b2 (ix2 i k)) := fun c => by
    rw [val_main_call1_v4_apply, val_main_call1_v3_apply]
    exact (congrArg (val_main_call1_v2 (F := Ideal) x adj w1 b1 w2 b2) (funext fun a => by match a with | ⟨0, _⟩ => rfl)).trans (rM_apply x adj w1 b1 w2 b2 i)
  have h5 : ∀ c : Fin 64, val_main_call1_v5 (F := Ideal) x adj w1 b1 w2 b2 (ix2 i c)
      = val_main_v10 (F := Ideal) x adj w1 b1 w2 b2 (ix2 i c) - rowMax (fun k => val_main_v10 (F := Ideal) x adj w1 b1 w2 b2 (ix2 i k)) :=
    fun c => congrArg (fun m : EReal => val_main_v10 (F := Ideal) x adj w1 b1 w2 b2 (ix2 i c) - m) (hm c)
  unfold lsm
  show val_main_call1_v5 (F := Ideal) x adj w1 b1 w2 b2 (ix2 i j) - val_main_call1_v10 (F := Ideal) x adj w1 b1 w2 b2 (ix2 i j) = _
  refine congrArg₂ (fun a b : EReal => a - b) (h5 j) ?_
  rw [val_main_call1_v10_apply]
  show Ideal.log (val_main_call1_v8 (F := Ideal) x adj w1 b1 w2 b2 (idx_main_call1_v10 (ix2 i j))) = _
  refine congrArg Ideal.log ?_
  rw [val_main_call1_v8_apply]
  refine (congrArg (val_main_call1_v7 (F := Ideal) x adj w1 b1 w2 b2)
    (show idx_main_call1_v8 (idx_main_call1_v10 (ix2 i j)) = ix1 i from funext fun a => by match a with | ⟨0, _⟩ => rfl)).trans ?_
  rw [val_main_call1_v7_apply]
  have hz : val_main_call1_cst_1 (F := Ideal) (Shape.Idx.first Cert.ReferenceIdeal.Facts₀.h_S_) = (0 : EReal) := Ideal.ofBits_zero_f32
  rw [hz, zero_add]
  refine Finset.sum_congr rfl fun k _ => ?_
  show Ideal.exp (val_main_call1_v5 (F := Ideal) x adj w1 b1 w2 b2 (idx_main_call1_v7 (ix1 i) k)) = _
  refine congrArg Ideal.exp ?_
  exact (congrArg (val_main_call1_v5 (F := Ideal) x adj w1 b1 w2 b2)
    (show idx_main_call1_v7 (ix1 i) k = ix2 i k from funext fun a => by match a with | ⟨0, _⟩ => rfl | ⟨1, _⟩ => rfl)).trans (h5 k)

end Reference

/-- The second sweep is the reference's log-softmax: given that the first sweep's array is the reference's second-layer features and
    that the kernel's bias row is the reference's bias, the kernel's result is the reference's, entry by entry: both are the
    log-softmax of the same row of pre-activations, the matrix's row times the features plus the bias. -/
theorem result_eq (x : Vec Ideal Cert.KernelIdeal.S10000x128 .f32) (adj : Vec Ideal Cert.KernelIdeal.S10000x10000 .f32) (w1 : Vec Ideal Cert.KernelIdeal.S128x128 .f32)
    (w2 : Vec Ideal Cert.KernelIdeal.S128x64 .f32) (b1 : Vec Ideal Cert.ReferenceIdeal.S128 .f32) (b2 : Vec Ideal Cert.ReferenceIdeal.S64 .f32)
    (b1r : Vec Ideal Cert.KernelIdeal.S1x128 .f32) (b2r : Vec Ideal Cert.KernelIdeal.S1x64 .f32)
    (hb2 : ∀ j : Fin 64, b2r (ix2 (0 : Fin 1) j) = b2 (ix1 j))
    (hs : Cert.KernelIdeal.Whole.second (F := Ideal) x adj w1 b1r w2 = Cert.ReferenceIdeal.ReadP.val_main_v6 (F := Ideal) x adj w1 b1 w2) :
    Cert.KernelIdeal.Whole.result (F := Ideal) x adj w1 b1r w2 b2r = Cert.ReferenceIdeal.ReadP.val_main_v11 (F := Ideal) x adj w1 b1 w2 b2 := by
  funext i
  obtain ⟨i0, j, rfl⟩ : ∃ (i0 : Fin 10000) (j : Fin 64), i = ix2 i0 j := ⟨i 0, i 1, eq_ix2 i⟩
  refine (result_apply x adj w1 w2 b1r b2r _ hs i0 j).trans ?_
  refine Eq.trans ?_ (ref_apply x adj w1 b1 w2 b2 i0 j).symm
  refine congrArg (fun h : Fin 64 → EReal => lsm h j) (funext fun c => ?_)
  refine Eq.trans ?_ (rH_apply x adj w1 b1 w2 b2 i0 c).symm
  exact congrArg (fun a : EReal => (∑ k : Fin 10000, adj (ix2 i0 k) * Cert.ReferenceIdeal.ReadP.val_main_v6 (F := Ideal) x adj w1 b1 w2 (ix2 k c)) + a) (hb2 c)

end Cert.SecondSweep

end
-- ==== Proof.lean ====
/-
  The kernel and its reference compute one function.

  Both compute out = log_softmax(adj · (relu(adj · (x · W1) + b1) · W2) + b2) over a dense 10000 × 10000 matrix `adj`, the
  log-softmax taken along each row of 64. The reference does it on whole arrays. The kernel sweeps twice over the fifty 200-row
  blocks of `adj`: the first sweep computes x · W1 once and then, block by block, the rows of relu(adj · (x · W1) + b1) · W2 into a
  10000 × 64 array kept on chip; the second sweep computes, block by block, the rows of the log-softmax of adj times that array plus
  b2. A row of a product of matrices depends only on the same row of the left factor, so computing by row blocks changes nothing, and
  over the extended reals a matrix unit's product into a zero accumulator and the host's contraction are the same finite sum, a lane
  sum and the host's sum likewise, and the maximum of a row either way the fold of `max` from -inf: no law is needed beyond
  reindexing finite sums, and the inputs' finiteness is not used.

  The three programs run to completion with their arguments unchanged (the frames); the idealized kernel is the kernel's own text read
  over the extended reals (nothing was rewritten, so nothing is to preserve); and the idealized kernel's result array equals the
  idealized reference's, index by index.
-/
import proofs.«170348_g29824252903679_cont_9to1_81_5_alg».proof.Defs
import proofs.«170348_g29824252903679_cont_9to1_81_5_alg».proof.Proof.Gen.Kernel
import proofs.«170348_g29824252903679_cont_9to1_81_5_alg».proof.Proof.Gen.KernelIdeal
import proofs.«170348_g29824252903679_cont_9to1_81_5_alg».proof.Proof.Gen.ReferenceIdeal
import proofs.«170348_g29824252903679_cont_9to1_81_5_alg».proof.Proof.Gen.Pre_finite_inputs
import proofs.«170348_g29824252903679_cont_9to1_81_5_alg».proof.Proof.KB.Frame
import proofs.«170348_g29824252903679_cont_9to1_81_5_alg».proof.Proof.KI.Value
import proofs.«170348_g29824252903679_cont_9to1_81_5_alg».proof.Proof.RefTerm
import proofs.«170348_g29824252903679_cont_9to1_81_5_alg».proof.Proof.FirstSweep
import proofs.«170348_g29824252903679_cont_9to1_81_5_alg».proof.Proof.SecondSweep
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- The idealized kernel's result, read at the argument arrays, is the reference's last stage of them: the region finds the
    arguments as launched and the two bias rows reshaped; the first sweep's array is the reference's product of the hidden layer
    with the second weights, and the second sweep's rows are the reference's log-softmax rows. -/
theorem out_eq (m : (ℓ : Loc Cert.KernelIdeal.nD Cert.KernelIdeal.τ Cert.KernelIdeal.sig) → Buf (Elt Ideal) ℓ) (c : Dev Cert.KernelIdeal.nD) :
    Cert.KernelIdeal.Final.out (F := Ideal) m c
      = Cert.ReferenceIdeal.ReadP.val_main_v11 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  unfold Cert.KernelIdeal.Final.out
  rw [Cert.KernelIdeal.Gen.V_main_arg0, Cert.KernelIdeal.Gen.V_main_arg1, Cert.KernelIdeal.Gen.V_main_arg2, Cert.KernelIdeal.Gen.V_main_arg4]
  exact Cert.SecondSweep.result_eq _ _ _ _ _ _ _ _ (Cert.KernelIdeal.Blocks.bias2 m c)
    (Cert.FirstSweep.second_eq _ _ _ _ _ _ (Cert.KernelIdeal.Blocks.bias1 m c))

/-- From memories agreeing on the arguments both idealized programs run, and end with equal results. -/
theorem algebraic : Cert.algebraic_KernelIdeal_ReferenceIdeal := by
  intro m ρ m' ρ' _ hagree
  refine ⟨fun c => Cert.KernelIdeal.Final.out (F := Ideal) m c, Cert.KernelIdeal.Final.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v11_eq, (hagree c).1, (hagree c).2.1, (hagree c).2.2.1, (hagree c).2.2.2.1,
    (hagree c).2.2.2.2.1, (hagree c).2.2.2.2.2]
  exact (out_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
